-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x2048x128 : Shape := ⟨3, ![32, 2048, 128]⟩
abbrev S32x256x128 : Shape := ⟨3, ![32, 256, 128]⟩
abbrev S32x2048 : Shape := ⟨2, ![32, 2048]⟩
abbrev S32x256 : Shape := ⟨2, ![32, 256]⟩
abbrev S128x1 : Shape := ⟨2, ![128, 1]⟩
abbrev S1x1x128 : Shape := ⟨3, ![1, 1, 128]⟩
abbrev S1 : Shape := ⟨1, ![1]⟩
abbrev S_ : Shape := ⟨0, ![]⟩

class Facts : Prop where
  bcast_S_S32x2048x128 : S_.BroadcastsInDim S32x2048x128 (![] : Fin 0 → Fin S32x2048x128.rank)
  reducesTo_S32x2048x128_S_d0_1_2 : S32x2048x128.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S128x1 : S_.BroadcastsInDim S128x1 (![] : Fin 0 → Fin S128x1.rank)
  reducesTo_S128x1_S_d0_1 : S128x1.ReducesTo [0, 1] S_
  bcast_S_S1x1x128 : S_.BroadcastsInDim S1x1x128 (![] : Fin 0 → Fin S1x1x128.rank)
  reducesTo_S1x1x128_S_d0_1_2 : S1x1x128.ReducesTo [0, 1, 2] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S1x1x128 .f32) (main_arg7 : FVec F S1 .f32) (main_v13 : IVec S_ 1) (main_v16 : IVec S128x1 1) : IVec S_ 1 :=
  let main_c_5 : IVec S_ 1 := constantI S_ 1 1#1
  let main_v17 : IVec S_ 1 := (fun x v => Host.reduce IntOp.andi x v reducesTo_S128x1_S_d0_1 h_S_) main_v16 main_c_5
  let main_v18 : IVec S_ 1 := andi main_v13 main_v17
  let main_v19 : FVec F S1x1x128 .f32 := Host.absf main_arg6
  let main_cst_6 : FVec F S_ .f32 := constant S_ .f32 0x7F800000#32
  let main_v20 : FVec F S1x1x128 .f32 := broadcastInDim S1x1x128 ![] bcast_S_S1x1x128 main_cst_6
  let main_v21 : IVec S1x1x128 1 := cmpf .olt main_v19 main_v20
  let main_c_7 : IVec S_ 1 := constantI S_ 1 1#1
  let main_v22 : IVec S_ 1 := (fun x v => Host.reduce IntOp.andi x v reducesTo_S1x1x128_S_d0_1_2 h_S_) main_v21 main_c_7
  let main_v23 : IVec S_ 1 := andi main_v18 main_v22
  let main_v24 : FVec F S1 .f32 := Host.absf main_arg7
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S32x2048x128 .f32) (main_arg1 : FVec F S32x256x128 .f32) (main_arg2 : IVec S32x2048 32) (main_arg3 : IVec S32x256 32) (main_arg4 : FVec F S128x1 .f32) (main_arg5 : FVec F S128x1 .f32) (main_arg6 : FVec F S1x1x128 .f32) (main_arg7 : FVec F S1 .f32) : IVec S_ 1 :=
  let main_v0 : FVec F S32x2048x128 .f32 := Host.absf main_arg0
  let main_cst : FVec F S_ .f32 := constant S_ .f32 0x7F800000#32
  let main_v1 : FVec F S32x2048x128 .f32 := broadcastInDim S32x2048x128 ![] bcast_S_S32x2048x128 main_cst
  let main_v2 : IVec S32x2048x128 1 := cmpf .olt main_v0 main_v1
  let main_c : IVec S_ 1 := constantI S_ 1 1#1
  let main_v3 : IVec S_ 1 := (fun x v => Host.reduce IntOp.andi x v reducesTo_S32x2048x128_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S128x1 .f32 := Host.absf main_arg4
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x1 .f32 := Host.absf main_arg5
  let main_cst_4 : FVec F S_ .f32 := constant S_ .f32 0x7F800000#32
  let main_v15 : FVec F S128x1 .f32 := broadcastInDim S128x1 ![] bcast_S_S128x1 main_cst_4
  let main_v16 : IVec S128x1 1 := cmpf .olt main_v14 main_v15
  fn_part1 (F := F) main_arg6 main_arg7 main_v13 main_v16
-- ==== Kernel.lean ====
abbrev S32x2048x128 : Shape := ⟨3, ![32, 2048, 128]⟩
abbrev S32x256x128 : Shape := ⟨3, ![32, 256, 128]⟩
abbrev S32x2048 : Shape := ⟨2, ![32, 2048]⟩
abbrev S32x256 : Shape := ⟨2, ![32, 256]⟩
abbrev S128x1 : Shape := ⟨2, ![128, 1]⟩
abbrev S1x1x128 : Shape := ⟨3, ![1, 1, 128]⟩
abbrev S1 : Shape := ⟨1, ![1]⟩
abbrev S_ : Shape := ⟨0, ![]⟩
abbrev S32x2048x1 : Shape := ⟨3, ![32, 2048, 1]⟩
abbrev S1x1x1 : Shape := ⟨3, ![1, 1, 1]⟩
abbrev S32x1x256 : Shape := ⟨3, ![32, 1, 256]⟩
abbrev S1x128 : Shape := ⟨2, ![1, 128]⟩
abbrev S32x2048x512 : Shape := ⟨3, ![32, 2048, 512]⟩
abbrev S1x2048x128 : Shape := ⟨3, ![1, 2048, 128]⟩
abbrev S1x256x128 : Shape := ⟨3, ![1, 256, 128]⟩
abbrev S1x2048x1 : Shape := ⟨3, ![1, 2048, 1]⟩
abbrev S1x1x256 : Shape := ⟨3, ![1, 1, 256]⟩
abbrev S1x2048x512 : Shape := ⟨3, ![1, 2048, 512]⟩
abbrev S2048x128 : Shape := ⟨2, ![2048, 128]⟩
abbrev S256x128 : Shape := ⟨2, ![256, 128]⟩
abbrev S2048x1 : Shape := ⟨2, ![2048, 1]⟩
abbrev S1x256 : Shape := ⟨2, ![1, 256]⟩
abbrev S2048 : Shape := ⟨1, ![2048]⟩
abbrev S256 : Shape := ⟨1, ![256]⟩
abbrev S256x1 : Shape := ⟨2, ![256, 1]⟩
abbrev S128x256 : Shape := ⟨2, ![128, 256]⟩
abbrev S2048x256 : Shape := ⟨2, ![2048, 256]⟩
abbrev S256x2048 : Shape := ⟨2, ![256, 2048]⟩

abbrev nBuf : Space → Nat
  | .hbm => 34
  | .vmem => 13
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S32x2048, .i32⟩
  | .hbm, ⟨3, _⟩ => ⟨S32x256, .i32⟩
  | .hbm, ⟨4, _⟩ => ⟨S128x1, .f32⟩
  | .hbm, ⟨5, _⟩ => ⟨S128x1, .f32⟩
  | .hbm, ⟨6, _⟩ => ⟨S1x1x128, .f32⟩
  | .hbm, ⟨7, _⟩ => ⟨S1, .f32⟩
  | .hbm, ⟨8, _⟩ => ⟨S32x2048, .f32⟩
  | .hbm, ⟨9, _⟩ => ⟨S_, .f32⟩
  | .hbm, ⟨10, _⟩ => ⟨S32x2048, .f32⟩
  | .hbm, ⟨11, _⟩ => ⟨S32x2048, .f32⟩
  | .hbm, ⟨12, _⟩ => ⟨S_, .f32⟩
  | .hbm, ⟨13, _⟩ => ⟨S32x2048, .f32⟩
  | .hbm, ⟨14, _⟩ => ⟨S32x2048, .f32⟩
  | .hbm, ⟨15, _⟩ => ⟨S32x2048x1, .f32⟩
  | .hbm, ⟨16, _⟩ => ⟨S1x1x1, .f32⟩
  | .hbm, ⟨17, _⟩ => ⟨S32x2048x1, .f32⟩
  | .hbm, ⟨18, _⟩ => ⟨S32x2048x1, .f32⟩
  | .hbm, ⟨19, _⟩ => ⟨S32x256, .f32⟩
  | .hbm, ⟨20, _⟩ => ⟨S_, .f32⟩
  | .hbm, ⟨21, _⟩ => ⟨S32x256, .f32⟩
  | .hbm, ⟨22, _⟩ => ⟨S32x256, .f32⟩
  | .hbm, ⟨23, _⟩ => ⟨S_, .f32⟩
  | .hbm, ⟨24, _⟩ => ⟨S32x256, .f32⟩
  | .hbm, ⟨25, _⟩ => ⟨S32x256, .f32⟩
  | .hbm, ⟨26, _⟩ => ⟨S32x1x256, .f32⟩
  | .hbm, ⟨27, _⟩ => ⟨S1x1x1, .f32⟩
  | .hbm, ⟨28, _⟩ => ⟨S32x1x256, .f32⟩
  | .hbm, ⟨29, _⟩ => ⟨S32x1x256, .f32⟩
  | .hbm, ⟨30, _⟩ => ⟨S1x128, .f32⟩
  | .hbm, ⟨31, _⟩ => ⟨S1x128, .f32⟩
  | .hbm, ⟨32, _⟩ => ⟨S1x128, .f32⟩
  | .hbm, ⟨33, _⟩ => ⟨S32x2048x512, .f32⟩
  | .local _ .vmem, ⟨0, _⟩ => ⟨S1x2048x128, .f32⟩
  | .local _ .vmem, ⟨1, _⟩ => ⟨S1x2048x128, .f32⟩
  | .local _ .vmem, ⟨2, _⟩ => ⟨S1x256x128, .f32⟩
  | .local _ .vmem, ⟨3, _⟩ => ⟨S1x256x128, .f32⟩
  | .local _ .vmem, ⟨4, _⟩ => ⟨S1x2048x1, .f32⟩
  | .local _ .vmem, ⟨5, _⟩ => ⟨S1x2048x1, .f32⟩
  | .local _ .vmem, ⟨6, _⟩ => ⟨S1x1x256, .f32⟩
  | .local _ .vmem, ⟨7, _⟩ => ⟨S1x1x256, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x2048x512, .f32⟩
  | .local _ .vmem, ⟨12, _⟩ => ⟨S1x2048x512, .f32⟩
  | _, _ => ⟨S32x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x2048x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S1_S1x1x1_2 : S1.BroadcastsInDim S1x1x1 (![2] : Fin 1 → Fin S1x1x1.rank)
  bcast_S1x1x1_S32x2048x1_0_1_2 : S1x1x1.BroadcastsInDim S32x2048x1 (![0, 1, 2] : Fin 3 → Fin S32x2048x1.rank)
  bcast_S_S32x256 : S_.BroadcastsInDim S32x256 (![] : Fin 0 → Fin S32x256.rank)
  bcast_S32x256_S32x1x256_0_2 : S32x256.BroadcastsInDim S32x1x256 (![0, 2] : Fin 2 → Fin S32x1x256.rank)
  bcast_S1x1x1_S32x1x256_0_1_2 : S1x1x1.BroadcastsInDim S32x1x256 (![0, 1, 2] : Fin 3 → Fin S32x1x256.rank)
  shapeCasts_S128x1_S1x128 : S128x1.ShapeCasts S1x128
  shapeCasts_S1x1x128_S1x128 : S1x1x128.ShapeCasts S1x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x2048x1_S1x2048x1_0_0_0 : ∀ a, (![0, 0, 0] : Fin 3 → Nat) a + S1x2048x1.size a ≤ S1x2048x1.size a
  h_S1x2048x1 : 0 < S1x2048x1.numel
  shapeCasts_S1x2048x1_S2048x1 : S1x2048x1.ShapeCasts S2048x1
  inb_S1x1x256_S1x1x256_0_0_0 : ∀ a, (![0, 0, 0] : Fin 3 → Nat) a + S1x1x256.size a ≤ S1x1x256.size a
  h_S1x1x256 : 0 < S1x1x256.numel
  shapeCasts_S1x1x256_S1x256 : S1x1x256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  broadcasts_S1x128_S2048x128 : S1x128.Broadcasts S2048x128
  reduces_S2048x128_S2048 : S2048x128.Reduces [1] S2048
  shapeCasts_S2048_S2048x1 : S2048.ShapeCasts S2048x1
  broadcasts_S1x128_S256x128 : S1x128.Broadcasts S256x128
  reduces_S256x128_S256 : S256x128.Reduces [1] S256
  shapeCasts_S256_S256x1 : S256.ShapeCasts S256x1
  transposes_S256x1_p1_0_S1x256 : S256x1.Transposes [1, 0] S1x256
  transposes_S256x128_p1_0_S128x256 : S256x128.Transposes [1, 0] S128x256
  broadcasts_S2048x1_S2048x256 : S2048x1.Broadcasts S2048x256
  broadcasts_S1x256_S2048x256 : S1x256.Broadcasts S2048x256
  reduces_S2048x256_S2048 : S2048x256.Reduces [1] S2048
  reduces_S2048x256_S256 : S2048x256.Reduces [0] S256
  shapeCasts_S256_S1x256 : S256.ShapeCasts S1x256
  transposes_S2048x256_p1_0_S256x2048 : S2048x256.Transposes [1, 0] S256x2048
  inb_S1x2048x512_S1x2048x128_0_0_0 : ∀ a, (![0, 0, 0] : Fin 3 → Nat) a + S1x2048x128.size a ≤ S1x2048x512.size a
  shapeCasts_S2048x128_S1x2048x128 : S2048x128.ShapeCasts S1x2048x128
  inb_S1x2048x512_S1x2048x128_0_0_128 : ∀ a, (![0, 0, 128] : Fin 3 → Nat) a + S1x2048x128.size a ≤ S1x2048x512.size a
  inb_S1x2048x512_S1x2048x128_0_0_256 : ∀ a, (![0, 0, 256] : Fin 3 → Nat) a + S1x2048x128.size a ≤ S1x2048x512.size a
  inb_S1x2048x512_S1x2048x128_0_0_384 : ∀ a, (![0, 0, 384] : Fin 3 → Nat) a + S1x2048x128.size a ≤ S1x2048x512.size a
  dot_S2048x128_S128x256_S2048x256_1_0_0_1_n_n_wf : DotDims.WF S2048x128 S128x256 S2048x256 [1] [0] [0] [1] [] []
  dot_S2048x256_S256x128_S2048x128_1_0_0_1_n_n_wf : DotDims.WF S2048x256 S256x128 S2048x128 [1] [0] [0] [1] [] []
  dot_S256x2048_S2048x128_S256x128_1_0_0_1_n_n_wf : DotDims.WF S256x2048 S2048x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x128.size a ≤ S32x2048x128.size a
  hwx0_0 : ∀ i : grid0.Coords, EltTy.bits .f32 = 32 ∨ (Rect.block (s := S32x2048x128) S1x2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S32x256x128.size a
  hwx0_1 : ∀ i : grid0.Coords, EltTy.bits .f32 = 32 ∨ (Rect.block (s := S32x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1.size a ≤ S32x2048x1.size a
  hwx0_2 : ∀ i : grid0.Coords, EltTy.bits .f32 = 32 ∨ (Rect.block (s := S32x2048x1) S1x2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x256.size a ≤ S32x1x256.size a
  hwx0_3 : ∀ i : grid0.Coords, EltTy.bits .f32 = 32 ∨ (Rect.block (s := S32x1x256) S1x1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x2048x512.size a ≤ S32x2048x512.size a
  hwx0_7 : ∀ i : grid0.Coords, EltTy.bits .f32 = 32 ∨ (Rect.block (s := S32x2048x512) S1x2048x512.size (cc0_transform_7 i) (hinb0_7 i)).WholeWords (EltTy.packing .f32)

variable [Facts₀]

def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S256x2048_S2048x128_S256x128_1_0_0_1_n_n : DotDims S256x2048 S2048x128 S256x128 where
  lhsContracting := [1]
  rhsContracting := [0]
  lhsNonContracting := [0]
  rhsNonContracting := [1]
  lhsBatch := []
  rhsBatch := []
  wf := dot_S256x2048_S2048x128_S256x128_1_0_0_1_n_n_wf

abbrev win0_0 : Pipeline.Window sig grid0 :=
  Pipeline.Window.ofSpec (Memref.whole main_arg0) S1x2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S1x2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v20) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21) S1x2048x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32x2048x128 : Shape := ⟨3, ![32, 2048, 128]⟩
abbrev S32x256x128 : Shape := ⟨3, ![32, 256, 128]⟩
abbrev S32x2048 : Shape := ⟨2, ![32, 2048]⟩
abbrev S32x256 : Shape := ⟨2, ![32, 256]⟩
abbrev S128x1 : Shape := ⟨2, ![128, 1]⟩
abbrev S1x1x128 : Shape := ⟨3, ![1, 1, 128]⟩
abbrev S1 : Shape := ⟨1, ![1]⟩
abbrev S32x2048x1 : Shape := ⟨3, ![32, 2048, 1]⟩
abbrev S1x32x256 : Shape := ⟨3, ![1, 32, 256]⟩
abbrev S32x1x256 : Shape := ⟨3, ![32, 1, 256]⟩
abbrev S32x2048x256 : Shape := ⟨3, ![32, 2048, 256]⟩
abbrev S1x1x1 : Shape := ⟨3, ![1, 1, 1]⟩
abbrev S_ : Shape := ⟨0, ![]⟩
abbrev S32x256x2048 : Shape := ⟨3, ![32, 256, 2048]⟩
abbrev S32x128x256 : Shape := ⟨3, ![32, 128, 256]⟩
abbrev S32x2048x512 : Shape := ⟨3, ![32, 2048, 512]⟩

abbrev nBuf : Space → Nat
  | .hbm => 76
  | .vmem => 0
  | .smem => 0
  | _ => 0

abbrev bufTy : (tb : Table) → Fin (tcTables nBuf tb) → BufTy
  | .hbm, ⟨0, _⟩ => ⟨S32x2048x128, .f32⟩
  | .hbm, ⟨1, _⟩ => ⟨S32x256x128, .f32⟩
  | .hbm, ⟨2, _⟩ => ⟨S32x2048, .i32⟩
  | .hbm, ⟨3, _⟩ => ⟨S32x256, .i32⟩
  | .hbm, ⟨4, _⟩ => ⟨S128x1, .f32⟩
  | .hbm, ⟨5, _⟩ => ⟨S128x1, .f32⟩
  | .hbm, ⟨6, _⟩ => ⟨S1x1x128, .f32⟩
  | .hbm, ⟨7, _⟩ => ⟨S1, .f32⟩
  | .hbm, ⟨8, _⟩ => ⟨S32x2048x1, .f32⟩
  | .hbm, ⟨9, _⟩ => ⟨S1x32x256, .f32⟩
  | .hbm, ⟨10, _⟩ => ⟨S32x1x256, .f32⟩
  | .hbm, ⟨11, _⟩ => ⟨S32x2048x128, .f32⟩
  | .hbm, ⟨12, _⟩ => ⟨S32x2048x128, .f32⟩
  | .hbm, ⟨13, _⟩ => ⟨S32x2048x256, .f32⟩
  | .hbm, ⟨14, _⟩ => ⟨S32x2048x256, .f32⟩
  | .hbm, ⟨15, _⟩ => ⟨S32x2048x256, .f32⟩
  | .hbm, ⟨16, _⟩ => ⟨S32x2048x256, .f32⟩
  | .hbm, ⟨17, _⟩ => ⟨S32x2048x256, .f32⟩
  | .hbm, ⟨18, _⟩ => ⟨S1x1x1, .f32⟩
  | .hbm, ⟨19, _⟩ => ⟨S32x2048x256, .f32⟩
  | .hbm, ⟨20, _⟩ => ⟨S32x2048x256, .f32⟩
  | .hbm, ⟨21, _⟩ => ⟨S32x256, .f32⟩
  | .hbm, ⟨22, _⟩ => ⟨S32x1x256, .f32⟩
  | .hbm, ⟨23, _⟩ => ⟨S32x2048, .f32⟩
  | .hbm, ⟨24, _⟩ => ⟨S32x2048x1, .f32⟩
  | .hbm, ⟨25, _⟩ => ⟨S_, .f32⟩
  | .hbm, ⟨26, _⟩ => ⟨S32x1x256, .f32⟩
  | .hbm, ⟨27, _⟩ => ⟨S32x1x256, .f32⟩
  | .hbm, ⟨28, _⟩ => ⟨S_, .f32⟩
  | .hbm, ⟨29, _⟩ => ⟨S32x1x256, .f32⟩
  | .hbm, ⟨30, _⟩ => ⟨S32x1x256, .f32⟩
  | .hbm, ⟨31, _⟩ => ⟨S32x2048x256, .f32⟩
  | .hbm, ⟨32, _⟩ => ⟨S32x2048x256, .f32⟩
  | .hbm, ⟨33, _⟩ => ⟨S_, .f32⟩
  | .hbm, ⟨34, _⟩ => ⟨S32x2048, .f32⟩
  | .hbm, ⟨35, _⟩ => ⟨S_, .f32⟩
  | .hbm, ⟨36, _⟩ => ⟨S32x2048, .f32⟩
  | .hbm, ⟨37, _⟩ => ⟨S32x2048, .f32⟩
  | .hbm, ⟨38, _⟩ => ⟨S32x2048x1, .f32⟩
  | .hbm, ⟨39, _⟩ => ⟨S32x2048x256, .f32⟩
  | .hbm, ⟨40, _⟩ => ⟨S32x2048x256, .f32⟩
  | .hbm, ⟨41, _⟩ => ⟨S32x2048x256, .f32⟩
  | .hbm, ⟨42, _⟩ => ⟨S_, .f32⟩
  | .hbm, ⟨43, _⟩ => ⟨S32x2048, .f32⟩
  | .hbm, ⟨44, _⟩ => ⟨S32x2048x1, .f32⟩
  | .hbm, ⟨45, _⟩ => ⟨S32x2048x256, .f32⟩
  | .hbm, ⟨46, _⟩ => ⟨S32x2048x256, .f32⟩
  | .hbm, ⟨47, _⟩ => ⟨S_, .f32⟩
  | .hbm, ⟨48, _⟩ => ⟨S32x2048x1, .f32⟩
  | .hbm, ⟨49, _⟩ => ⟨S32x2048x1, .f32⟩
  | .hbm, ⟨50, _⟩ => ⟨S_, .f32⟩
  | .hbm, ⟨51, _⟩ => ⟨S32x2048x1, .f32⟩
  | .hbm, ⟨52, _⟩ => ⟨S32x2048x1, .f32⟩
  | .hbm, ⟨53, _⟩ => ⟨S32x2048x256, .f32⟩
  | .hbm, ⟨54, _⟩ => ⟨S32x2048x256, .f32⟩
  | .hbm, ⟨55, _⟩ => ⟨S_, .f32⟩
  | .hbm, ⟨56, _⟩ => ⟨S32x256, .f32⟩
  | .hbm, ⟨57, _⟩ => ⟨S_, .f32⟩
  | .hbm, ⟨58, _⟩ => ⟨S32x256, .f32⟩
  | .hbm, ⟨59, _⟩ => ⟨S32x256, .f32⟩
  | .hbm, ⟨60, _⟩ => ⟨S32x1x256, .f32⟩
  | .hbm, ⟨61, _⟩ => ⟨S32x2048x256, .f32⟩
  | .hbm, ⟨62, _⟩ => ⟨S32x2048x256, .f32⟩
  | .hbm, ⟨63, _⟩ => ⟨S32x2048x256, .f32⟩
  | .hbm, ⟨64, _⟩ => ⟨S_, .f32⟩
  | .hbm, ⟨65, _⟩ => ⟨S32x256, .f32⟩
  | .hbm, ⟨66, _⟩ => ⟨S32x1x256, .f32⟩
  | .hbm, ⟨67, _⟩ => ⟨S32x2048x256, .f32⟩
  | .hbm, ⟨68, _⟩ => ⟨S32x2048x256, .f32⟩
  | .hbm, ⟨69, _⟩ => ⟨S32x256x2048, .f32⟩
  | .hbm, ⟨70, _⟩ => ⟨S32x2048x128, .f32⟩
  | .hbm, ⟨71, _⟩ => ⟨S32x128x256, .f32⟩
  | .hbm, ⟨72, _⟩ => ⟨S32x2048x128, .f32⟩
  | .hbm, ⟨73, _⟩ => ⟨S32x2048x128, .f32⟩
  | .hbm, ⟨74, _⟩ => ⟨S32x2048x128, .f32⟩
  | .hbm, ⟨75, _⟩ => ⟨S32x2048x512, .f32⟩
  | _, _ => ⟨S32x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_v18 : Ref sig .tc := ⟨.hbm, 27, rfl⟩
abbrev main_cst_0 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_1 : Ref sig .tc := ⟨.hbm, 33, rfl⟩
abbrev main_v23 : Ref sig .tc := ⟨.hbm, 34, rfl⟩
abbrev main_cst_2 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_3 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩

abbrev nD : Nat := 1
abbrev τ : Topo := Topo.v7x

variable {F : FTy → Type} [FloatOps F]

class Facts₀ : Prop where
  transposes_S1x32x256_S32x1x256_1_0_2 : S1x32x256.Transposes [1, 0, 2] S32x1x256
  bcast_S1x1x128_S32x2048x128_0_1_2 : S1x1x128.BroadcastsInDim S32x2048x128 (![0, 1, 2] : Fin 3 → Fin S32x2048x128.rank)
  bcast_S32x2048x1_S32x2048x256_0_1_2 : S32x2048x1.BroadcastsInDim S32x2048x256 (![0, 1, 2] : Fin 3 → Fin S32x2048x256.rank)
  bcast_S32x1x256_S32x2048x256_0_1_2 : S32x1x256.BroadcastsInDim S32x2048x256 (![0, 1, 2] : Fin 3 → Fin S32x2048x256.rank)
  bcast_S1_S1x1x1_2 : S1.BroadcastsInDim S1x1x1 (![2] : Fin 1 → Fin S1x1x1.rank)
  bcast_S1x1x1_S32x2048x256_0_1_2 : S1x1x1.BroadcastsInDim S32x2048x256 (![0, 1, 2] : Fin 3 → Fin S32x2048x256.rank)
  bcast_S32x256_S32x1x256_0_2 : S32x256.BroadcastsInDim S32x1x256 (![0, 2] : Fin 2 → Fin S32x1x256.rank)
  bcast_S32x2048_S32x2048x1_0_1 : S32x2048.BroadcastsInDim S32x2048x1 (![0, 1] : Fin 2 → Fin S32x2048x1.rank)
  bcast_S_S32x1x256 : S_.BroadcastsInDim S32x1x256 (![] : Fin 0 → Fin S32x1x256.rank)
  reducesTo_S32x2048x256_S32x2048_d2 : S32x2048x256.ReducesTo [2] S32x2048
  h_S_ : 0 < S_.numel
  bcast_S_S32x2048 : S_.BroadcastsInDim S32x2048 (![] : Fin 0 → Fin S32x2048.rank)
  bcast_S_S32x2048x1 : S_.BroadcastsInDim S32x2048x1 (![] : Fin 0 → Fin S32x2048x1.rank)
  reducesTo_S32x2048x256_S32x256_d1 : S32x2048x256.ReducesTo [1] S32x256
  bcast_S_S32x256 : S_.BroadcastsInDim S32x256 (![] : Fin 0 → Fin S32x256.rank)
  transposes_S32x2048x256_S32x256x2048_0_2_1 : S32x2048x256.Transposes [0, 2, 1] S32x256x2048
  concatenates_S32x2048x128_S32x2048x128_S32x2048x128_S32x2048x128_S32x2048x512_d2 : Shape.Concatenates [S32x2048x128, S32x2048x128, S32x2048x128, S32x2048x128] S32x2048x512 2
  dot_S32x2048x128_S128x1_S32x2048x1_2_0_01_1_n_n_wf : DotDims.WF S32x2048x128 S128x1 S32x2048x1 [2] [0] [0, 1] [1] [] []
  dot_S128x1_S32x256x128_S1x32x256_0_2_1_01_n_n_wf : DotDims.WF S128x1 S32x256x128 S1x32x256 [0] [2] [1] [0, 1] [] []
  dot_S32x2048x128_S32x256x128_S32x2048x256_2_2_1_1_0_0_wf : DotDims.WF S32x2048x128 S32x256x128 S32x2048x256 [2] [2] [1] [1] [0] [0]
  dot_S32x2048x256_S32x256x128_S32x2048x128_2_1_1_2_0_0_wf : DotDims.WF S32x2048x256 S32x256x128 S32x2048x128 [2] [1] [1] [2] [0] [0]
  dot_S32x2048x128_S32x256x2048_S32x128x256_1_2_2_1_0_0_wf : DotDims.WF S32x2048x128 S32x256x2048 S32x128x256 [1] [2] [2] [1] [0] [0]
  dot_S32x2048x256_S32x128x256_S32x2048x128_2_2_1_1_0_0_wf : DotDims.WF S32x2048x256 S32x128x256 S32x2048x128 [2] [2] [1] [1] [0] [0]

variable [Facts₀]

def dot_S32x2048x128_S128x1_S32x2048x1_2_0_01_1_n_n : DotDims S32x2048x128 S128x1 S32x2048x1 where
  lhsContracting := [2]
  rhsContracting := [0]
  lhsNonContracting := [0, 1]
  rhsNonContracting := [1]
  lhsBatch := []
  rhsBatch := []
  wf := dot_S32x2048x128_S128x1_S32x2048x1_2_0_01_1_n_n_wf
def dot_S128x1_S32x256x128_S1x32x256_0_2_1_01_n_n : DotDims S128x1 S32x256x128 S1x32x256 where
  lhsContracting := [0]
  rhsContracting := [2]
  lhsNonContracting := [1]
  rhsNonContracting := [0, 1]
  lhsBatch := []
  rhsBatch := []
  wf := dot_S128x1_S32x256x128_S1x32x256_0_2_1_01_n_n_wf
def dot_S32x2048x128_S32x256x128_S32x2048x256_2_2_1_1_0_0 : DotDims S32x2048x128 S32x256x128 S32x2048x256 where
  lhsContracting := [2]
  rhsContracting := [2]
  lhsNonContracting := [1]
  rhsNonContracting := [1]
  lhsBatch := [0]
  rhsBatch := [0]
  wf := dot_S32x2048x128_S32x256x128_S32x2048x256_2_2_1_1_0_0_wf
def dot_S32x2048x256_S32x256x128_S32x2048x128_2_1_1_2_0_0 : DotDims S32x2048x256 S32x256x128 S32x2048x128 where
  lhsContracting := [2]
  rhsContracting := [1]
  lhsNonContracting := [1]
  rhsNonContracting := [2]
  lhsBatch := [0]
  rhsBatch := [0]
  wf := dot_S32x2048x256_S32x256x128_S32x2048x128_2_1_1_2_0_0_wf
def dot_S32x2048x128_S32x256x2048_S32x128x256_1_2_2_1_0_0 : DotDims S32x2048x128 S32x256x2048 S32x128x256 where
  lhsContracting := [1]
  rhsContracting := [2]
  lhsNonContracting := [2]
  rhsNonContracting := [1]
  lhsBatch := [0]
  rhsBatch := [0]
  wf := dot_S32x2048x128_S32x256x2048_S32x128x256_1_2_2_1_0_0_wf
def dot_S32x2048x256_S32x128x256_S32x2048x128_2_2_1_1_0_0 : DotDims S32x2048x256 S32x128x256 S32x2048x128 where
  lhsContracting := [2]
  rhsContracting := [2]
  lhsNonContracting := [1]
  rhsNonContracting := [1]
  lhsBatch := [0]
  rhsBatch := [0]
  wf := dot_S32x2048x256_S32x128x256_S32x2048x128_2_2_1_1_0_0_wf

class Facts : Prop extends Facts₀ where

variable [Facts]
-- ==== Proof.LibMatrix.lean ====
/-
  The maximum and the softmax of a finite family of extended reals, and small layout operations, one-axis reductions and
  softmaxes of a matrix read at explicit coordinates.

  A column `[a]` cast to `[a, 1]`, a column `[a, 1]` broadcast along rows to `[a, b]`; and the sum or the maximum of a
  matrix `[a, b]` along its rows (axis 1, one value per row) or along its columns (axis 0, one value per column), each
  as a sum or a fold of `max` over `Fin` of the reduced extent.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMatrix

open Idealize.ShloMosaic Idealize.ShloMosaic.ValueIdx

variable {α : Type}

/-! ## The maximum and the softmax of a finite family -/

/-- The pattern of minus infinity a float maximum starts from. -/
abbrev negInf : EReal := Ideal.ofBits .f32 0xFF800000#32

/-- The maximum of a finite family: the fold of `max` from minus infinity. -/
def vmax {n : Nat} (f : Fin n → EReal) : EReal := (Finset.univ : Finset (Fin n)).fold max negInf f

/-- Softmax of a finite family, with the maximum subtracted first: `exp (f i - max f) / ∑ j, exp (f j - max f)`. -/
def soft {n : Nat} (f : Fin n → EReal) (i : Fin n) : EReal :=
  Ideal.div (Ideal.exp (f i - vmax f)) (∑ j : Fin n, Ideal.exp (f j - vmax f))

/-- Taking the maximum with the starting value once more changes nothing. -/
theorem max_vmax {n : Nat} (f : Fin n → EReal) : max negInf (vmax f) = vmax f :=
  max_eq_right ((Finset.le_fold_max _).mpr (Or.inl le_rfl))

/-! ## Layout operations and reductions of a matrix -/

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of a matrix along each row: at row `i`, the sum over the columns. -/
theorem rowSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun c => Fin.ext ?_)
  match c with
  | ⟨0, _⟩ => rfl
  | ⟨1, _⟩ => rfl

/-- The sum of a matrix along each column: at column `j`, the sum over the rows. -/
theorem colSum_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.add.neutral .f32 hφ) (j : Fin b) :
    multiReduction .add [0] ⟨1, ![b]⟩ src acc h hφ hacc (ix1 j) = ∑ k : Fin a, src (ix2 k j) := by
  refine (Ideal.multiReduction_add_single src acc h hφ hacc (ix1 j)).trans ?_
  refine Finset.sum_congr rfl fun k _ => congrArg src (funext fun c => Fin.ext ?_)
  match c with
  | ⟨0, _⟩ => rfl
  | ⟨1, _⟩ => rfl

/-- The maximum of a matrix along each row: at row `i`, the fold of `max` from the accumulator's value over the columns. -/
theorem rowMax_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.maximumf.neutral .f32 hφ) (i : Fin a) :
    multiReduction .maximumf [1] ⟨1, ![a]⟩ src acc h hφ hacc (ix1 i)
      = (Finset.univ : Finset (Fin b)).fold max (Ideal.ofBits .f32 acc) (fun k => src (ix2 i k)) := by
  refine (Ideal.multiReduction_maximumf_single src acc h hφ hacc (ix1 i)).trans ?_
  have e : (src ∘ h.lift (ix1 i)) = fun k => src (ix2 i k) :=
    funext fun k => congrArg src (funext fun c => Fin.ext (by
      match c with
      | ⟨0, _⟩ => rfl
      | ⟨1, _⟩ => rfl))
  rw [e]
  rfl

/-- The maximum of a matrix along each column: at column `j`, the fold of `max` over the rows. -/
theorem colMax_apply {a b : ℕ} (src : FVec Ideal ⟨2, ![a, b]⟩ .f32) (acc : BitVec 32)
    (h : (⟨2, ![a, b]⟩ : Shape).Reduces [0] ⟨1, ![b]⟩) (hφ : FKind.Formats .f32) (hacc : acc = FKind.maximumf.neutral .f32 hφ) (j : Fin b) :
    multiReduction .maximumf [0] ⟨1, ![b]⟩ src acc h hφ hacc (ix1 j)
      = (Finset.univ : Finset (Fin a)).fold max (Ideal.ofBits .f32 acc) (fun k => src (ix2 k j)) := by
  refine (Ideal.multiReduction_maximumf_single src acc h hφ hacc (ix1 j)).trans ?_
  have e : (src ∘ h.lift (ix1 j)) = fun k => src (ix2 k j) :=
    funext fun k => congrArg src (funext fun c => Fin.ext (by
      match c with
      | ⟨0, _⟩ => rfl
      | ⟨1, _⟩ => rfl))
  rw [e]
  rfl

/-! ## A softmax written with vector operations -/

/-- The softmax of each row of a matrix, as vector operations write it (row maximum kept as a column, broadcast back,
    subtracted, exponentiated, divided by the row sum kept as a column and broadcast back), read at `(i, j)`: the
    softmax of row `i` at `j`. -/
theorem softRows_apply {a b : ℕ} (S : FVec Ideal ⟨2, ![a, b]⟩ .f32)
    (hr : (⟨2, ![a, b]⟩ : Shape).Reduces [1] ⟨1, ![a]⟩) (hc : (⟨1, ![a]⟩ : Shape).ShapeCasts ⟨2, ![a, 1]⟩)
    (hb : (⟨2, ![a, 1]⟩ : Shape).Broadcasts ⟨2, ![a, b]⟩) (hφ : FKind.Formats .f32)
    (hm : (0xFF800000#32 : BitVec 32) = FKind.maximumf.neutral .f32 hφ)
    (hs : (0x00000000#32 : BitVec 32) = FKind.add.neutral .f32 hφ) (i : Fin a) (j : Fin b) :
    divf (exp (subf S (broadcastTo ⟨2, ![a, b]⟩ (shapeCast ⟨2, ![a, 1]⟩
        (multiReduction .maximumf [1] ⟨1, ![a]⟩ S 0xFF800000#32 hr hφ hm) hc) hb)))
      (broadcastTo ⟨2, ![a, b]⟩ (shapeCast ⟨2, ![a, 1]⟩ (multiReduction .add [1] ⟨1, ![a]⟩
        (exp (subf S (broadcastTo ⟨2, ![a, b]⟩ (shapeCast ⟨2, ![a, 1]⟩
          (multiReduction .maximumf [1] ⟨1, ![a]⟩ S 0xFF800000#32 hr hφ hm) hc) hb)))
        0x00000000#32 hr hφ hs) hc) hb) (ix2 i j)
      = soft (fun k => S (ix2 i k)) j := by
  have hM : ∀ (i : Fin a) (j : Fin b), broadcastTo ⟨2, ![a, b]⟩ (shapeCast ⟨2, ![a, 1]⟩
      (multiReduction .maximumf [1] ⟨1, ![a]⟩ S 0xFF800000#32 hr hφ hm) hc) hb (ix2 i j) = vmax (fun k => S (ix2 i k)) :=
    fun i j => (broadcastTo_a1_ab_apply _ hb i j).trans ((shapeCast_a_a1_apply _ hc i 0).trans (rowMax_apply S _ hr hφ hm i))
  unfold soft
  refine congrArg₂ Ideal.div ?_ ?_
  · exact congrArg (fun z => Ideal.exp (S (ix2 i j) - z)) (hM i j)
  · refine (broadcastTo_a1_ab_apply _ hb i j).trans ((shapeCast_a_a1_apply _ hc i 0).trans ((rowSum_apply _ _ hr hφ hs i).trans ?_))
    exact Finset.sum_congr rfl fun k _ => congrArg (fun z => Ideal.exp (S (ix2 i k) - z)) (hM i k)

/-- The softmax of each column of a matrix, as vector operations write it (column maximum kept as a row, broadcast
    back, subtracted, exponentiated, divided by the column sum), read at `(i, j)`: the softmax of column `j` at `i`. -/
theorem softCols_apply {a b : ℕ} (S : FVec Ideal ⟨2, ![a, b]⟩ .f32)
    (hr : (⟨2, ![a, b]⟩ : Shape).Reduces [0] ⟨1, ![b]⟩) (hc : (⟨1, ![b]⟩ : Shape).ShapeCasts ⟨2, ![1, b]⟩)
    (hb : (⟨2, ![1, b]⟩ : Shape).Broadcasts ⟨2, ![a, b]⟩) (hφ : FKind.Formats .f32)
    (hm : (0xFF800000#32 : BitVec 32) = FKind.maximumf.neutral .f32 hφ)
    (hs : (0x00000000#32 : BitVec 32) = FKind.add.neutral .f32 hφ) (i : Fin a) (j : Fin b) :
    divf (exp (subf S (broadcastTo ⟨2, ![a, b]⟩ (shapeCast ⟨2, ![1, b]⟩
        (multiReduction .maximumf [0] ⟨1, ![b]⟩ S 0xFF800000#32 hr hφ hm) hc) hb)))
      (broadcastTo ⟨2, ![a, b]⟩ (shapeCast ⟨2, ![1, b]⟩ (multiReduction .add [0] ⟨1, ![b]⟩
        (exp (subf S (broadcastTo ⟨2, ![a, b]⟩ (shapeCast ⟨2, ![1, b]⟩
          (multiReduction .maximumf [0] ⟨1, ![b]⟩ S 0xFF800000#32 hr hφ hm) hc) hb)))
        0x00000000#32 hr hφ hs) hc) hb) (ix2 i j)
      = soft (fun k => S (ix2 k j)) i := by
  have hM : ∀ (i : Fin a) (j : Fin b), broadcastTo ⟨2, ![a, b]⟩ (shapeCast ⟨2, ![1, b]⟩
      (multiReduction .maximumf [0] ⟨1, ![b]⟩ S 0xFF800000#32 hr hφ hm) hc) hb (ix2 i j) = vmax (fun k => S (ix2 k j)) :=
    fun i j => (broadcastTo_1b_ab_apply _ hb i j).trans ((shapeCast_a_1a_apply _ hc 0 j).trans (colMax_apply S _ hr hφ hm j))
  unfold soft
  refine congrArg₂ Ideal.div ?_ ?_
  · exact congrArg (fun z => Ideal.exp (S (ix2 i j) - z)) (hM i j)
  · refine (broadcastTo_1b_ab_apply _ hb i j).trans ((shapeCast_a_1a_apply _ hc 0 j).trans ((colSum_apply _ _ hr hφ hs j).trans ?_))
    exact Finset.sum_congr rfl fun k _ => congrArg (fun z => Ideal.exp (S (ix2 k j) - z)) (hM k j)

end Cert.LibMatrix

end
-- ==== Proof.Spec.lean ====
/-
  Context-to-query attention with a trilinear similarity and two masked softmaxes, as plain mathematics on the
  extended reals, for one batch element.

  Given a context `xc : 2048 × 128`, a question `xq : 256 × 128`, three weight vectors `w0 w1 w2 : 128` and two additive
  mask terms `ca : 2048`, `qa : 256` (each already containing the bias), the similarity of context row `c` and question
  row `q` is `∑_d xc[c,d]·w0[d] + ∑_d xq[q,d]·w1[d] + ∑_d xc[c,d]·w2[d]·xq[q,d]`; adding `qa[q]` and normalising over `q`
  gives the row attention, adding `ca[c]` and normalising over `c` the column attention. The output row of `c` is the
  concatenation of `xc[c]`, `c2q[c] = ∑_q row[c,q]·xq[q]`, `xc[c]·c2q[c]` and `xc[c]·q2c[c]`, where
  `q2c[c] = ∑_q row[c,q]·(∑_c' col[c',q]·xc[c'])`.

  The normalisation is the usual one: subtract the maximum, exponentiate, divide by the sum. Sums are sums over `Fin n`,
  the maximum is the fold of `max` from the pattern of minus infinity, the quotient is the extended reals' `Ideal.div`.
-/
import Idealize.ShloMosaic.PureOps.Ideal
import Idealize.ShloMosaic.PureOps.Ideal.Laws
import Idealize.ShloMosaic.Lib.ValueIdx
import proofs.«121643_j6047313952906_2_alg».proof.Proof.LibMatrix

noncomputable section

namespace Cert.Attn

open Idealize.ShloMosaic Idealize.ShloMosaic.ValueIdx Cert.LibMatrix

/-- The additive mask term of one position: `-1e30 · (1 - mask) + bias`, the integer mask converted to a float. -/
def maskAdd (mk : BitVec 32) (bias : EReal) : EReal :=
  Ideal.ofBits .f32 0xF149F2CA#32 * (Ideal.ofBits .f32 0x3F800000#32 - FloatOps.sitofp (F := Ideal) .f32 mk) + bias

section
variable (xc : Fin 2048 → Fin 128 → EReal) (xq : Fin 256 → Fin 128 → EReal)
  (ca : Fin 2048 → EReal) (qa : Fin 256 → EReal) (w0 w1 w2 : Fin 128 → EReal)

/-- A row's linear score `∑_d x[r,d]·w[d]`. -/
def lin {n : Nat} (x : Fin n → Fin 128 → EReal) (w : Fin 128 → EReal) (r : Fin n) : EReal := ∑ d : Fin 128, x r d * w d

/-- The trilinear score `∑_d xc[c,d]·w2[d]·xq[q,d]`. -/
def tri (c : Fin 2048) (q : Fin 256) : EReal := ∑ d : Fin 128, xc c d * w2 d * xq q d

/-- The similarity with the question mask term added. -/
def scoreQ (c : Fin 2048) (q : Fin 256) : EReal := tri xc xq w2 c q + lin xc w0 c + (lin xq w1 q + qa q)

/-- The similarity with the context mask term added. -/
def scoreC (c : Fin 2048) (q : Fin 256) : EReal := tri xc xq w2 c q + (lin xc w0 c + ca c) + lin xq w1 q

/-- Attention of context row `c` over the question rows. -/
def attnRow (c : Fin 2048) (q : Fin 256) : EReal := soft (fun q' => scoreQ xc xq qa w0 w1 w2 c q') q

/-- Attention of question row `q` over the context rows. -/
def attnCol (c : Fin 2048) (q : Fin 256) : EReal := soft (fun c' => scoreC xc xq ca w0 w1 w2 c' q) c

/-- Context-to-query: each context row's attention-weighted question. -/
def c2q (c : Fin 2048) (d : Fin 128) : EReal := ∑ q : Fin 256, attnRow xc xq qa w0 w1 w2 c q * xq q d

/-- Each question row's attention-weighted context. -/
def ctx (q : Fin 256) (d : Fin 128) : EReal := ∑ c : Fin 2048, attnCol xc xq ca w0 w1 w2 c q * xc c d

/-- Query-to-context. -/
def q2c (c : Fin 2048) (d : Fin 128) : EReal := ∑ q : Fin 256, attnRow xc xq qa w0 w1 w2 c q * ctx xc xq ca w0 w1 w2 q d

/-- The output row of context row `c`, by quarter `k` and lane `d`. -/
def outQ (k : Fin 4) (c : Fin 2048) (d : Fin 128) : EReal :=
  match k with
  | 0 => xc c d
  | 1 => c2q xc xq qa w0 w1 w2 c d
  | 2 => xc c d * c2q xc xq qa w0 w1 w2 c d
  | 3 => xc c d * q2c xc xq ca qa w0 w1 w2 c d

/-- The output row of context row `c` at lane `j` of 512: quarter `j / 128`, lane `j % 128` within it. -/
def outRow (c : Fin 2048) (j : Fin 512) : EReal :=
  outQ xc xq ca qa w0 w1 w2 ⟨j.val / 128, Nat.div_lt_of_lt_mul (show j.val < 128 * 4 from j.isLt)⟩ c
    ⟨j.val % 128, Nat.mod_lt _ (by norm_num)⟩

/-- Lane `128·k + d` of the output row is lane `d` of quarter `k`. -/
theorem outRow_at (k : Fin 4) (c : Fin 2048) (d : Fin 128) (c' : Fin 2048) (j : Fin 512) (hc : c'.val = c.val)
    (hj : j.val = 128 * k.val + d.val) :
    outRow xc xq ca qa w0 w1 w2 c' j = outQ xc xq ca qa w0 w1 w2 k c d := by
  obtain rfl : c' = c := Fin.ext hc
  unfold outRow
  have hd := d.isLt
  exact congrArg₂ (fun (k : Fin 4) (d : Fin 128) => outQ xc xq ca qa w0 w1 w2 k c' d)
    (Fin.ext (by show j.val / 128 = k.val; omega)) (Fin.ext (by show j.val % 128 = d.val; omega))
end

/-- The whole result as one function of the argument arrays, index by index: batch `i 0`, context row `i 1`, lane `i 2` of 512.
    The integer masks enter through their additive terms, the weight columns `[128, 1]` and the weight row `[1, 1, 128]`
    as vectors, the bias as its one entry. -/
def Garr (x0 : (⟨3, ![32, 2048, 128]⟩ : Shape).Idx → EReal) (x1 : (⟨3, ![32, 256, 128]⟩ : Shape).Idx → EReal)
    (x2 : (⟨2, ![32, 2048]⟩ : Shape).Idx → BitVec 32) (x3 : (⟨2, ![32, 256]⟩ : Shape).Idx → BitVec 32)
    (x4 x5 : (⟨2, ![128, 1]⟩ : Shape).Idx → EReal) (x6 : (⟨3, ![1, 1, 128]⟩ : Shape).Idx → EReal)
    (x7 : (⟨1, ![1]⟩ : Shape).Idx → EReal) : (⟨3, ![32, 2048, 512]⟩ : Shape).Idx → EReal := fun i =>
  outRow (fun c d => x0 (ix3 (i 0 : Fin 32) c d)) (fun q d => x1 (ix3 (i 0 : Fin 32) q d))
    (fun c => maskAdd (x2 (ix2 (i 0 : Fin 32) c)) (x7 (ix1 (0 : Fin 1))))
    (fun q => maskAdd (x3 (ix2 (i 0 : Fin 32) q)) (x7 (ix1 (0 : Fin 1))))
    (fun d => x4 (ix2 d (0 : Fin 1))) (fun d => x5 (ix2 d (0 : Fin 1))) (fun d => x6 (ix3 (0 : Fin 1) (0 : Fin 1) d))
    (i 1 : Fin 2048) (i 2 : Fin 512)

/-- `Garr` at an index whose coordinates are known. -/
theorem Garr_apply (x0 : (⟨3, ![32, 2048, 128]⟩ : Shape).Idx → EReal) (x1 : (⟨3, ![32, 256, 128]⟩ : Shape).Idx → EReal)
    (x2 : (⟨2, ![32, 2048]⟩ : Shape).Idx → BitVec 32) (x3 : (⟨2, ![32, 256]⟩ : Shape).Idx → BitVec 32)
    (x4 x5 : (⟨2, ![128, 1]⟩ : Shape).Idx → EReal) (x6 : (⟨3, ![1, 1, 128]⟩ : Shape).Idx → EReal)
    (x7 : (⟨1, ![1]⟩ : Shape).Idx → EReal) (i : (⟨3, ![32, 2048, 512]⟩ : Shape).Idx) (b : Fin 32) (r : Fin 2048) (j : Fin 512)
    (h0 : (i 0).val = b.val) (h1 : (i 1).val = r.val) (h2 : (i 2).val = j.val) :
    Garr x0 x1 x2 x3 x4 x5 x6 x7 i
      = outRow (fun c d => x0 (ix3 b c d)) (fun q d => x1 (ix3 b q d))
          (fun c => maskAdd (x2 (ix2 b c)) (x7 (ix1 (0 : Fin 1))))
          (fun q => maskAdd (x3 (ix2 b q)) (x7 (ix1 (0 : Fin 1))))
          (fun d => x4 (ix2 d (0 : Fin 1))) (fun d => x5 (ix2 d (0 : Fin 1))) (fun d => x6 (ix3 (0 : Fin 1) (0 : Fin 1) d)) r j := by
  obtain rfl : i = ix3 b r j := funext fun a => Fin.ext (by
    match a with
    | ⟨0, _⟩ => exact h0
    | ⟨1, _⟩ => exact h1
    | ⟨2, _⟩ => exact h2)
  rfl

end Cert.Attn

end
-- ==== Proof.KernelBody.lean ====
/-
  The kernel body's arithmetic, read entry by entry at the extended reals.

  The body loads a context block `v0 : 1×2048×128`, a question block `v2 : 1×256×128`, the two additive mask blocks
  `v4 : 1×2048×1` and `v6 : 1×1×256` and three weight rows `v8 v10 v12 : 1×128`. Each intermediate value it computes is
  identified here with the corresponding quantity of the attention block (Spec.lean) of the matrices
  `xc[c,d] = v0[0,c,d]`, `xq[q,d] = v2[0,q,d]`, `ca[c] = v4[0,c,0]`, `qa[q] = v6[0,0,q]`, `w0[d] = v8[0,d]`, `w1[d] = v10[0,d]`,
  `w2[d] = v12[0,d]`: the linear scores are row sums of products, the trilinear score and the three attention products are
  matrix products into a zero accumulator (a change of float format is the identity here), the two normalisations are
  softmaxes by rows and by columns. The last four lemmas read the four stored quarters of the output block.
-/
import proofs.«121643_j6047313952906_2_alg».proof.Proof.Gen.KernelIdeal.Frame
import proofs.«121643_j6047313952906_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.LibMatrix Cert.Attn

/-! ## The three matrix products -/

/-- The 2048×128 by 128×256 product: the left operand's index at output `(i, j)` and contraction position `k` is `(i, k)`. -/
theorem mmA_lhs (i : Fin 2048) (j : Fin 256) (k : Fin 128) :
    dot_S2048x128_S128x256_S2048x256_1_0_0_1_n_n.lhsIdx (ix2 i j) ((contrEquiv1 dot_S2048x128_S128x256_S2048x256_1_0_0_1_n_n 128 rfl rfl).symm k) = ix2 i k :=
  funext fun a => Fin.ext (by
    match a with
    | ⟨0, _⟩ =>
      show (dot_S2048x128_S128x256_S2048x256_1_0_0_1_n_n.lhsIdx (ix2 i j) ((contrEquiv1 dot_S2048x128_S128x256_S2048x256_1_0_0_1_n_n 128 rfl rfl).symm k) 0).val = i.val
      unfold DotDims.lhsIdx
      rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
      rfl
    | ⟨1, _⟩ =>
      exact (dot_S2048x128_S128x256_S2048x256_1_0_0_1_n_n.lhsIdx_val_of_single rfl (ix2 i j) _).trans (contrEquiv1_symm_val dot_S2048x128_S128x256_S2048x256_1_0_0_1_n_n 128 rfl rfl k))

/-- and the right operand's is `(k, j)`. -/
theorem mmA_rhs (i : Fin 2048) (j : Fin 256) (k : Fin 128) :
    dot_S2048x128_S128x256_S2048x256_1_0_0_1_n_n.rhsIdx (ix2 i j) ((contrEquiv1 dot_S2048x128_S128x256_S2048x256_1_0_0_1_n_n 128 rfl rfl).symm k) = ix2 k j :=
  funext fun a => Fin.ext (by
    match a with
    | ⟨0, _⟩ =>
      exact (dot_S2048x128_S128x256_S2048x256_1_0_0_1_n_n.rhsIdx_val_of_single rfl (ix2 i j) _).trans (contrEquiv1_symm_val dot_S2048x128_S128x256_S2048x256_1_0_0_1_n_n 128 rfl rfl k)
    | ⟨1, _⟩ =>
      show (dot_S2048x128_S128x256_S2048x256_1_0_0_1_n_n.rhsIdx (ix2 i j) ((contrEquiv1 dot_S2048x128_S128x256_S2048x256_1_0_0_1_n_n 128 rfl rfl).symm k) 1).val = j.val
      unfold DotDims.rhsIdx
      rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
      rfl)

/-- So the product into a zero accumulator, read at `(i, j)`, is `∑ k, x[i,k] · y[k,j]`. -/
theorem mmA_apply {φ₁ φ₂ : FTy} (x : FVec Ideal S2048x128 φ₁) (y : FVec Ideal S128x256 φ₂) (i : Fin 2048) (j : Fin 256) :
    matmul dot_S2048x128_S128x256_S2048x256_1_0_0_1_n_n none x y (constant S2048x256 .f32 0x00000000#32) (ix2 i j) = ∑ k : Fin 128, x (ix2 i k) * y (ix2 k j) := by
  refine (Ideal.matmul_constant_zero_apply dot_S2048x128_S128x256_S2048x256_1_0_0_1_n_n none x y (ix2 i j)).trans ?_
  refine (Equiv.sum_comp (contrEquiv1 dot_S2048x128_S128x256_S2048x256_1_0_0_1_n_n 128 rfl rfl).symm _).symm.trans ?_
  exact Finset.sum_congr rfl fun k _ => congrArg₂ (fun p q => x p * y q) (mmA_lhs i j k) (mmA_rhs i j k)

/-- The 2048×256 by 256×128 product: the left operand's index at output `(i, j)` and contraction position `k` is `(i, k)`. -/
theorem mmB_lhs (i : Fin 2048) (j : Fin 128) (k : Fin 256) :
    dot_S2048x256_S256x128_S2048x128_1_0_0_1_n_n.lhsIdx (ix2 i j) ((contrEquiv1 dot_S2048x256_S256x128_S2048x128_1_0_0_1_n_n 256 rfl rfl).symm k) = ix2 i k :=
  funext fun a => Fin.ext (by
    match a with
    | ⟨0, _⟩ =>
      show (dot_S2048x256_S256x128_S2048x128_1_0_0_1_n_n.lhsIdx (ix2 i j) ((contrEquiv1 dot_S2048x256_S256x128_S2048x128_1_0_0_1_n_n 256 rfl rfl).symm k) 0).val = i.val
      unfold DotDims.lhsIdx
      rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
      rfl
    | ⟨1, _⟩ =>
      exact (dot_S2048x256_S256x128_S2048x128_1_0_0_1_n_n.lhsIdx_val_of_single rfl (ix2 i j) _).trans (contrEquiv1_symm_val dot_S2048x256_S256x128_S2048x128_1_0_0_1_n_n 256 rfl rfl k))

/-- and the right operand's is `(k, j)`. -/
theorem mmB_rhs (i : Fin 2048) (j : Fin 128) (k : Fin 256) :
    dot_S2048x256_S256x128_S2048x128_1_0_0_1_n_n.rhsIdx (ix2 i j) ((contrEquiv1 dot_S2048x256_S256x128_S2048x128_1_0_0_1_n_n 256 rfl rfl).symm k) = ix2 k j :=
  funext fun a => Fin.ext (by
    match a with
    | ⟨0, _⟩ =>
      exact (dot_S2048x256_S256x128_S2048x128_1_0_0_1_n_n.rhsIdx_val_of_single rfl (ix2 i j) _).trans (contrEquiv1_symm_val dot_S2048x256_S256x128_S2048x128_1_0_0_1_n_n 256 rfl rfl k)
    | ⟨1, _⟩ =>
      show (dot_S2048x256_S256x128_S2048x128_1_0_0_1_n_n.rhsIdx (ix2 i j) ((contrEquiv1 dot_S2048x256_S256x128_S2048x128_1_0_0_1_n_n 256 rfl rfl).symm k) 1).val = j.val
      unfold DotDims.rhsIdx
      rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
      rfl)

/-- So the product into a zero accumulator, read at `(i, j)`, is `∑ k, x[i,k] · y[k,j]`. -/
theorem mmB_apply {φ₁ φ₂ : FTy} (x : FVec Ideal S2048x256 φ₁) (y : FVec Ideal S256x128 φ₂) (i : Fin 2048) (j : Fin 128) :
    matmul dot_S2048x256_S256x128_S2048x128_1_0_0_1_n_n none x y (constant S2048x128 .f32 0x00000000#32) (ix2 i j) = ∑ k : Fin 256, x (ix2 i k) * y (ix2 k j) := by
  refine (Ideal.matmul_constant_zero_apply dot_S2048x256_S256x128_S2048x128_1_0_0_1_n_n none x y (ix2 i j)).trans ?_
  refine (Equiv.sum_comp (contrEquiv1 dot_S2048x256_S256x128_S2048x128_1_0_0_1_n_n 256 rfl rfl).symm _).symm.trans ?_
  exact Finset.sum_congr rfl fun k _ => congrArg₂ (fun p q => x p * y q) (mmB_lhs i j k) (mmB_rhs i j k)

/-- The 256×2048 by 2048×128 product: the left operand's index at output `(i, j)` and contraction position `k` is `(i, k)`. -/
theorem mmC_lhs (i : Fin 256) (j : Fin 128) (k : Fin 2048) :
    dot_S256x2048_S2048x128_S256x128_1_0_0_1_n_n.lhsIdx (ix2 i j) ((contrEquiv1 dot_S256x2048_S2048x128_S256x128_1_0_0_1_n_n 2048 rfl rfl).symm k) = ix2 i k :=
  funext fun a => Fin.ext (by
    match a with
    | ⟨0, _⟩ =>
      show (dot_S256x2048_S2048x128_S256x128_1_0_0_1_n_n.lhsIdx (ix2 i j) ((contrEquiv1 dot_S256x2048_S2048x128_S256x128_1_0_0_1_n_n 2048 rfl rfl).symm k) 0).val = i.val
      unfold DotDims.lhsIdx
      rw [dif_neg (show ¬(0 : Fin S256x2048.rank) ∈ dot_S256x2048_S2048x128_S256x128_1_0_0_1_n_n.lhsBatch by decide), dif_pos (show (0 : Fin S256x2048.rank) ∈ dot_S256x2048_S2048x128_S256x128_1_0_0_1_n_n.lhsNonContracting by decide)]
      rfl
    | ⟨1, _⟩ =>
      exact (dot_S256x2048_S2048x128_S256x128_1_0_0_1_n_n.lhsIdx_val_of_single rfl (ix2 i j) _).trans (contrEquiv1_symm_val dot_S256x2048_S2048x128_S256x128_1_0_0_1_n_n 2048 rfl rfl k))

/-- and the right operand's is `(k, j)`. -/
theorem mmC_rhs (i : Fin 256) (j : Fin 128) (k : Fin 2048) :
    dot_S256x2048_S2048x128_S256x128_1_0_0_1_n_n.rhsIdx (ix2 i j) ((contrEquiv1 dot_S256x2048_S2048x128_S256x128_1_0_0_1_n_n 2048 rfl rfl).symm k) = ix2 k j :=
  funext fun a => Fin.ext (by
    match a with
    | ⟨0, _⟩ =>
      exact (dot_S256x2048_S2048x128_S256x128_1_0_0_1_n_n.rhsIdx_val_of_single rfl (ix2 i j) _).trans (contrEquiv1_symm_val dot_S256x2048_S2048x128_S256x128_1_0_0_1_n_n 2048 rfl rfl k)
    | ⟨1, _⟩ =>
      show (dot_S256x2048_S2048x128_S256x128_1_0_0_1_n_n.rhsIdx (ix2 i j) ((contrEquiv1 dot_S256x2048_S2048x128_S256x128_1_0_0_1_n_n 2048 rfl rfl).symm k) 1).val = j.val
      unfold DotDims.rhsIdx
      rw [dif_neg (show ¬(1 : Fin S2048x128.rank) ∈ dot_S256x2048_S2048x128_S256x128_1_0_0_1_n_n.rhsBatch by decide), dif_pos (show (1 : Fin S2048x128.rank) ∈ dot_S256x2048_S2048x128_S256x128_1_0_0_1_n_n.rhsNonContracting by decide)]
      rfl)

/-- So the product into a zero accumulator, read at `(i, j)`, is `∑ k, x[i,k] · y[k,j]`. -/
theorem mmC_apply {φ₁ φ₂ : FTy} (x : FVec Ideal S256x2048 φ₁) (y : FVec Ideal S2048x128 φ₂) (i : Fin 256) (j : Fin 128) :
    matmul dot_S256x2048_S2048x128_S256x128_1_0_0_1_n_n none x y (constant S256x128 .f32 0x00000000#32) (ix2 i j) = ∑ k : Fin 2048, x (ix2 i k) * y (ix2 k j) := by
  refine (Ideal.matmul_constant_zero_apply dot_S256x2048_S2048x128_S256x128_1_0_0_1_n_n none x y (ix2 i j)).trans ?_
  refine (Equiv.sum_comp (contrEquiv1 dot_S256x2048_S2048x128_S256x128_1_0_0_1_n_n 2048 rfl rfl).symm _).symm.trans ?_
  exact Finset.sum_congr rfl fun k _ => congrArg₂ (fun p q => x p * y q) (mmC_lhs i j k) (mmC_rhs i j k)

/-! ## The blocks as matrices -/

variable (v0 : Vec Ideal S1x2048x128 .f32) (v2 : Vec Ideal S1x256x128 .f32) (v4 : Vec Ideal S1x2048x1 .f32)
  (v6 : Vec Ideal S1x1x256 .f32) (v8 v10 v12 : Vec Ideal S1x128 .f32)

/-- The context block as a matrix. -/
abbrev XC (v0 : Vec Ideal S1x2048x128 .f32) : Fin 2048 → Fin 128 → EReal := fun c d => v0 (ix3 (0 : Fin 1) c d)
/-- The question block as a matrix. -/
abbrev XQ (v2 : Vec Ideal S1x256x128 .f32) : Fin 256 → Fin 128 → EReal := fun q d => v2 (ix3 (0 : Fin 1) q d)
/-- The context mask term as a vector. -/
abbrev CA (v4 : Vec Ideal S1x2048x1 .f32) : Fin 2048 → EReal := fun c => v4 (ix3 (0 : Fin 1) c (0 : Fin 1))
/-- The question mask term as a vector. -/
abbrev QA (v6 : Vec Ideal S1x1x256 .f32) : Fin 256 → EReal := fun q => v6 (ix3 (0 : Fin 1) (0 : Fin 1) q)
/-- A weight row as a vector. -/
abbrev WV (v : Vec Ideal S1x128 .f32) : Fin 128 → EReal := fun d => v (ix2 (0 : Fin 1) d)

/-! ## The intermediate values -/

theorem pay2_apply (c : Fin 2048) (d : Fin 128) : k0_pay2 v0 (ix2 c d) = XC v0 c d := by
  unfold k0_pay2
  exact shapeCast_1ab_ab_apply v0 _ c d

theorem pay3_apply (q : Fin 256) (d : Fin 128) : k0_pay3 v2 (ix2 q d) = XQ v2 q d := by
  unfold k0_pay3
  exact shapeCast_1ab_ab_apply v2 _ q d

theorem pay4_apply (c : Fin 2048) (d : Fin 128) : k0_pay4 v0 (ix2 c d) = XC v0 c d := by
  unfold k0_pay4
  exact pay2_apply v0 c d

theorem pay5_apply (q : Fin 256) (d : Fin 128) : k0_pay5 v2 (ix2 q d) = XQ v2 q d := by
  unfold k0_pay5
  exact pay3_apply v2 q d

/-- A weight row broadcast over the rows of a matrix reads the weight of the column. -/
theorem wrow_apply {a : ℕ} (v : Vec Ideal S1x128 .f32) (h : S1x128.ShapeCasts S1x128) (hb : S1x128.Broadcasts ⟨2, ![a, 128]⟩)
    (r : Fin a) (d : Fin 128) : broadcastTo ⟨2, ![a, 128]⟩ (shapeCast S1x128 v h) hb (ix2 r d) = WV v d := by
  rw [shapeCast_self]
  exact broadcastTo_1b_ab_apply v hb r d

/-- The context's linear score, kept as a column. -/
theorem pay6_apply (c : Fin 2048) (u : Fin 1) : k0_pay6 v0 v8 (ix2 c u) = lin (XC v0) (WV v8) c := by
  unfold k0_pay6
  try dsimp only
  refine (shapeCast_a_a1_apply _ _ c u).trans ((rowSum_apply _ _ _ _ _ c).trans ?_)
  unfold lin
  exact Finset.sum_congr rfl fun d _ => congrArg₂ (· * ·) (pay2_apply v0 c d) (wrow_apply v8 _ _ c d)

/-- The question's linear score, kept as a row. -/
theorem pay7_apply (u : Fin 1) (q : Fin 256) : k0_pay7 v2 v10 (ix2 u q) = lin (XQ v2) (WV v10) q := by
  unfold k0_pay7
  try dsimp only
  refine (transpose_ix2_apply _ _ u q).trans ((shapeCast_a_a1_apply _ _ q u).trans ((rowSum_apply _ _ _ _ _ q).trans ?_))
  unfold lin
  exact Finset.sum_congr rfl fun d _ => congrArg₂ (· * ·) (pay3_apply v2 q d) (wrow_apply v10 _ _ q d)

/-- The trilinear score: the product of the weighted context with the transposed question. -/
theorem pay8_apply (c : Fin 2048) (q : Fin 256) : k0_pay8 v0 v2 v12 (ix2 c q) = tri (XC v0) (XQ v2) (WV v12) c q := by
  unfold k0_pay8
  try dsimp only
  refine (mmA_apply _ _ c q).trans ?_
  unfold tri
  refine Finset.sum_congr rfl fun d _ => congrArg₂ (· * ·) ?_ ?_
  · exact congrArg₂ (· * ·) (pay2_apply v0 c d) (wrow_apply v12 _ _ c d)
  · exact (transpose_ix2_apply _ _ d q).trans (pay5_apply v2 q d)

/-- The similarity with the question mask term. -/
theorem pay9_apply (c : Fin 2048) (q : Fin 256) :
    k0_pay9 v0 v2 v6 v8 v10 v12 (ix2 c q) = scoreQ (XC v0) (XQ v2) (QA v6) (WV v8) (WV v10) (WV v12) c q := by
  unfold k0_pay9 scoreQ
  try dsimp only
  refine congrArg₂ (· + ·) (congrArg₂ (· + ·) (pay8_apply v0 v2 v12 c q) ?_) ?_
  · exact (broadcastTo_a1_ab_apply _ _ c q).trans (pay6_apply v0 v8 c 0)
  · exact (broadcastTo_1b_ab_apply _ _ c q).trans
      (congrArg₂ (· + ·) (pay7_apply v2 v10 0 q) (shapeCast_1ab_ab_apply v6 _ (0 : Fin 1) q))

/-- The similarity with the context mask term, before the question's linear score is added. -/
theorem pay10_apply (c : Fin 2048) (q : Fin 256) :
    k0_pay10 v0 v2 v4 v8 v12 (ix2 c q) = tri (XC v0) (XQ v2) (WV v12) c q + (lin (XC v0) (WV v8) c + CA v4 c) := by
  unfold k0_pay10
  try dsimp only
  refine congrArg₂ (· + ·) (pay8_apply v0 v2 v12 c q) ?_
  exact (broadcastTo_a1_ab_apply _ _ c q).trans
    (congrArg₂ (· + ·) (pay6_apply v0 v8 c 0) (shapeCast_1ab_ab_apply v4 _ c (0 : Fin 1)))

/-- The attention over the question rows of any score matrix: its softmax by rows. -/
theorem pay11_apply (S : FVec Ideal S2048x256 .f32) (c : Fin 2048) (q : Fin 256) :
    k0_pay11 S (ix2 c q) = soft (fun q' => S (ix2 c q')) q := by
  unfold k0_pay11
  try dsimp only
  exact softRows_apply S _ _ _ _ _ _ c q

/-- The attention-weighted question rows. -/
theorem pay12_apply (x : FVec Ideal S256x128 .bf16) (S : FVec Ideal S2048x256 .f32) (c : Fin 2048) (d : Fin 128) :
    k0_pay12 x S (ix2 c d) = ∑ q : Fin 256, soft (fun q' => S (ix2 c q')) q * x (ix2 q d) := by
  unfold k0_pay12
  try dsimp only
  refine (mmB_apply _ _ c d).trans ?_
  exact Finset.sum_congr rfl fun q _ => congrArg (· * x (ix2 q d)) (pay11_apply S c q)

/-- The last product: the row attention applied to the column-attention-weighted context, times the context entry. -/
theorem pay16_apply (v1 : FVec Ideal S2048x128 .f32) (v14 : FVec Ideal S2048x128 .bf16) (v24 : FVec Ideal S1x256 .f32)
    (v35 v37 : FVec Ideal S2048x256 .f32) (c : Fin 2048) (d : Fin 128) :
    k0_pay16 v1 v14 v24 v35 v37 (ix2 c d)
      = v1 (ix2 c d) * ∑ q : Fin 256, soft (fun q' => v35 (ix2 c q')) q *
          ∑ c' : Fin 2048, soft (fun c'' => v37 (ix2 c'' q) + v24 (ix2 (0 : Fin 1) q)) c' * v14 (ix2 c' d) := by
  unfold k0_pay16
  try dsimp only
  refine congrArg (v1 (ix2 c d) * ·) ?_
  refine (mmB_apply _ _ c d).trans ?_
  refine Finset.sum_congr rfl fun q _ => congrArg₂ (· * ·) (pay11_apply v35 c q) ?_
  refine (mmC_apply _ _ q d).trans ?_
  refine Finset.sum_congr rfl fun c' _ => congrArg (· * v14 (ix2 c' d)) ?_
  refine (transpose_ix2_apply _ _ q c').trans ?_
  refine (softCols_apply (addf v37 (broadcastTo S2048x256 v24 _)) _ _ _ _ _ _ c' q).trans ?_
  exact congrArg (fun f => soft f c') (funext fun c'' => congrArg (v37 (ix2 c'' q) + ·) (broadcastTo_1b_ab_apply v24 _ c'' q))

/-! ## The four stored quarters -/

section
variable (c : Fin 2048) (d : Fin 128) (u : Fin 1)

/-- First quarter: the context block itself. -/
theorem quarter0 : k0_pay13 (k0_pay2 v0) (ix3 u c d) = outQ (XC v0) (XQ v2) (CA v4) (QA v6) (WV v8) (WV v10) (WV v12) 0 c d := by
  unfold k0_pay13
  exact (shapeCast_ab_1ab_apply _ _ u c d).trans (pay2_apply v0 c d)

/-- The score matrix the row attention is taken of is the spec's. -/
theorem scoreQ_fun (c : Fin 2048) :
    (fun q' => k0_pay9 v0 v2 v6 v8 v10 v12 (ix2 c q')) = fun q' => scoreQ (XC v0) (XQ v2) (QA v6) (WV v8) (WV v10) (WV v12) c q' :=
  funext fun q' => pay9_apply v0 v2 v6 v8 v10 v12 c q'

/-- The product behind the second and third quarters is context-to-query. -/
theorem c2q_eq : k0_pay12 (k0_pay5 v2) (k0_pay9 v0 v2 v6 v8 v10 v12) (ix2 c d)
    = c2q (XC v0) (XQ v2) (QA v6) (WV v8) (WV v10) (WV v12) c d := by
  refine (pay12_apply _ _ c d).trans ?_
  unfold c2q attnRow
  rw [scoreQ_fun]
  exact Finset.sum_congr rfl fun q _ => congrArg₂ (· * ·) rfl (pay5_apply v2 q d)

/-- Second quarter: context-to-query. -/
theorem quarter1 : k0_pay14 (k0_pay5 v2) (k0_pay9 v0 v2 v6 v8 v10 v12) (ix3 u c d)
    = outQ (XC v0) (XQ v2) (CA v4) (QA v6) (WV v8) (WV v10) (WV v12) 1 c d := by
  unfold k0_pay14
  exact (shapeCast_ab_1ab_apply _ _ u c d).trans (c2q_eq v0 v2 v6 v8 v10 v12 c d)

/-- Third quarter: the context times context-to-query. -/
theorem quarter2 : k0_pay15 (k0_pay2 v0) (k0_pay5 v2) (k0_pay9 v0 v2 v6 v8 v10 v12) (ix3 u c d)
    = outQ (XC v0) (XQ v2) (CA v4) (QA v6) (WV v8) (WV v10) (WV v12) 2 c d := by
  unfold k0_pay15
  try dsimp only
  refine (shapeCast_ab_1ab_apply _ _ u c d).trans ?_
  exact congrArg₂ (· * ·) (pay2_apply v0 c d) (c2q_eq v0 v2 v6 v8 v10 v12 c d)

/-- Fourth quarter: the context times query-to-context. -/
theorem quarter3 : k0_pay1 (k0_pay16 (k0_pay2 v0) (k0_pay4 v0) (k0_pay7 v2 v10) (k0_pay9 v0 v2 v6 v8 v10 v12) (k0_pay10 v0 v2 v4 v8 v12)) (ix3 u c d)
    = outQ (XC v0) (XQ v2) (CA v4) (QA v6) (WV v8) (WV v10) (WV v12) 3 c d := by
  unfold k0_pay1
  refine (shapeCast_ab_1ab_apply _ _ u c d).trans ((pay16_apply _ _ _ _ _ c d).trans ?_)
  show _ = XC v0 c d * q2c (XC v0) (XQ v2) (CA v4) (QA v6) (WV v8) (WV v10) (WV v12) c d
  refine congrArg₂ (· * ·) (pay2_apply v0 c d) ?_
  unfold q2c attnRow
  rw [scoreQ_fun]
  refine Finset.sum_congr rfl fun q _ => congrArg₂ (· * ·) rfl ?_
  unfold ctx attnCol
  refine Finset.sum_congr rfl fun c' _ => congrArg₂ (· * ·) ?_ (pay4_apply v0 c' d)
  refine congrArg (fun f => soft f c') (funext fun c'' => ?_)
  unfold scoreC
  exact congrArg₂ (· + ·) (pay10_apply v0 v2 v4 v8 v12 c'' q) (pay7_apply v2 v10 0 q)
end

/-! ## The output block the body leaves -/

theorem hz3 : (![0, 0, 0] : Fin 3 → Nat) = fun _ => 0 := funext fun a => by fin_cases a <;> rfl
theorem hz2 : (![0, 0] : Fin 2 → Nat) = fun _ => 0 := funext fun a => by fin_cases a <;> rfl

section
variable (x : S1x2048x128.Idx)

/-- The store of lanes 0–127 holds the first quarter of the output rows. -/
theorem piece0 : k0_pay13 (k0_pay2 v0) x
    = outRow (XC v0) (XQ v2) (CA v4) (QA v6) (WV v8) (WV v10) (WV v12) ((r0_5.emb x) 1) ((r0_5.emb x) 2) := by
  obtain ⟨u, c, d, rfl⟩ : ∃ (u : Fin 1) (c : Fin 2048) (d : Fin 128), x = ix3 u c d := ⟨x 0, x 1, x 2, eq_ix3 x⟩
  exact (quarter0 v0 v2 v4 v6 v8 v10 v12 c d u).trans (outRow_at _ _ _ _ _ _ _ 0 c d _ _
    (by show 0 + 1 * c.val = c.val; omega) (by show 0 + 1 * d.val = 128 * 0 + d.val; omega)).symm

/-- The store of lanes 128–255 holds the second quarter. -/
theorem piece1 : k0_pay14 (k0_pay5 v2) (k0_pay9 v0 v2 v6 v8 v10 v12) x
    = outRow (XC v0) (XQ v2) (CA v4) (QA v6) (WV v8) (WV v10) (WV v12) ((r0_6.emb x) 1) ((r0_6.emb x) 2) := by
  obtain ⟨u, c, d, rfl⟩ : ∃ (u : Fin 1) (c : Fin 2048) (d : Fin 128), x = ix3 u c d := ⟨x 0, x 1, x 2, eq_ix3 x⟩
  exact (quarter1 v0 v2 v4 v6 v8 v10 v12 c d u).trans (outRow_at _ _ _ _ _ _ _ 1 c d _ _
    (by show 0 + 1 * c.val = c.val; omega) (by show 128 + 1 * d.val = 128 * 1 + d.val; omega)).symm

/-- The store of lanes 256–383 holds the third quarter. -/
theorem piece2 : k0_pay15 (k0_pay2 v0) (k0_pay5 v2) (k0_pay9 v0 v2 v6 v8 v10 v12) x
    = outRow (XC v0) (XQ v2) (CA v4) (QA v6) (WV v8) (WV v10) (WV v12) ((r0_7.emb x) 1) ((r0_7.emb x) 2) := by
  obtain ⟨u, c, d, rfl⟩ : ∃ (u : Fin 1) (c : Fin 2048) (d : Fin 128), x = ix3 u c d := ⟨x 0, x 1, x 2, eq_ix3 x⟩
  exact (quarter2 v0 v2 v4 v6 v8 v10 v12 c d u).trans (outRow_at _ _ _ _ _ _ _ 2 c d _ _
    (by show 0 + 1 * c.val = c.val; omega) (by show 256 + 1 * d.val = 128 * 2 + d.val; omega)).symm

/-- The store of lanes 384–511 holds the fourth quarter. -/
theorem piece3 : k0_pay1 (k0_pay16 (k0_pay2 v0) (k0_pay4 v0) (k0_pay7 v2 v10) (k0_pay9 v0 v2 v6 v8 v10 v12) (k0_pay10 v0 v2 v4 v8 v12)) x
    = outRow (XC v0) (XQ v2) (CA v4) (QA v6) (WV v8) (WV v10) (WV v12) ((r0_8.emb x) 1) ((r0_8.emb x) 2) := by
  obtain ⟨u, c, d, rfl⟩ : ∃ (u : Fin 1) (c : Fin 2048) (d : Fin 128), x = ix3 u c d := ⟨x 0, x 1, x 2, eq_ix3 x⟩
  exact (quarter3 v0 v2 v4 v6 v8 v10 v12 c d u).trans (outRow_at _ _ _ _ _ _ _ 3 c d _ _
    (by show 0 + 1 * c.val = c.val; omega) (by show 384 + 1 * d.val = 128 * 3 + d.val; omega)).symm
end

/-- The block the body leaves in the output's staging buffer, from the input blocks: at row `z 1` and lane `z 2`, the
    output row of the attention block of those blocks. The four stores tile the buffer and each holds its quarter. -/
theorem out_block (z : S1x2048x512.Idx) :
    out0_7 v0 v2 v4 v6 v8 v10 v12 z
      = outRow (XC v0) (XQ v2) (CA v4) (QA v6) (WV v8) (WV v10) (WV v12) (z 1) (z 2) := by
  unfold out0_7
  simp only [View.ld_unit_zero (S := S1x2048x128) hz3, View.ld_unit_zero (S := S1x256x128) hz3,
    View.ld_unit_zero (S := S1x2048x1) hz3, View.ld_unit_zero (S := S1x1x256) hz3, View.ld_unit_zero (S := S1x128) hz2]
  refine View.canon_apply_of_pieces (Val := Elt Ideal) (e := .f32)
    (fun z : S1x2048x512.Idx => outRow (XC v0) (XQ v2) (CA v4) (QA v6) (WV v8) (WV v10) (WV v12) (z 1) (z 2)) _ ?_ z
    (cover0_7 _ _ _ _ z)
  intro p hp x
  simp only [List.mem_cons, List.not_mem_nil, or_false] at hp
  rcases hp with rfl | rfl | rfl | rfl
  · exact piece3 v0 v2 v4 v6 v8 v10 v12 x
  · exact piece2 v0 v2 v4 v6 v8 v10 v12 x
  · exact piece1 v0 v2 v4 v6 v8 v10 v12 x
  · exact piece0 v0 v2 v4 v6 v8 v10 v12 x

end Cert.KernelIdeal.Body

end
-- ==== Proof.KernelHost.lean ====
/-
  What the region finds in the operand arrays that host operations compute before the call.

  The context mask term is `-1e30 · (1 - mask) + bias` broadcast to a trailing unit axis, the question mask term the same
  with a unit axis in the middle; the three weight arrays are reshaped to rows. Each is read here at an explicit index as
  a function of the program's arguments.
-/
import proofs.«121643_j6047313952906_2_alg».proof.Proof.Gen.KernelIdeal.Frame
import proofs.«121643_j6047313952906_2_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Host

open Cert.KernelIdeal Cert.KernelIdeal.Gen Idealize.ShloMosaic Idealize.ShloMosaic.TcCoe Idealize.SL.Sem
open Idealize.ShloMosaic.StableHlo Idealize.ShloMosaic.ValueIdx Cert.LibMatrix Cert.Attn

variable (m : (ℓ : Loc nD τ sig) → Buf (Elt Ideal) ℓ)

/-- The context mask term the region finds, at batch `b`, row `r`. -/
theorem cmask_at (c : Dev nD) (b : Fin 32) (r : Fin 2048) (u : Fin 1) :
    (V m c main_v8 : S32x2048x1.Idx → EReal) (ix3 b r u)
      = maskAdd ((m ((c : Thread nD τ).loc main_arg2) : S32x2048.Idx → BitVec 32) (ix2 b r))
          ((m ((c : Thread nD τ).loc main_arg7) : S1.Idx → EReal) (ix1 (0 : Fin 1))) := by
  dsimp only [V, hostOps0]
  after_results
  unfold maskAdd
  refine congrArg₂ (· + ·) ?_ ?_
  · refine (broadcastInDim_apply _ _ _ (ix3 b r u) (ix2 b r) (fun a => match a with
      | ⟨0, _⟩ => by show b.val = if (32 : Nat) = 1 then 0 else b.val; rw [if_neg (by decide)]
      | ⟨1, _⟩ => by show r.val = if (2048 : Nat) = 1 then 0 else r.val; rw [if_neg (by decide)])).trans ?_
    refine congrArg₂ (· * ·) ?_ (congrArg₂ (· - ·) ?_ rfl)
    · exact broadcastInDim_apply _ _ _ (ix2 b r) ix0 (fun a => a.elim0)
    · exact broadcastInDim_apply _ _ _ (ix2 b r) ix0 (fun a => a.elim0)
  · refine (broadcastInDim_apply _ _ _ (ix3 b r u) (ix3 (0 : Fin 1) (0 : Fin 1) (0 : Fin 1)) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl])).trans ?_
    exact broadcastInDim_apply _ _ _ (ix3 (0 : Fin 1) (0 : Fin 1) (0 : Fin 1)) (ix1 (0 : Fin 1)) (fun a => match a with
      | ⟨0, _⟩ => by show 0 = if (1 : Nat) = 1 then 0 else _; rw [if_pos rfl])

/-- The question mask term the region finds, at batch `b`, row `q`. -/
theorem qmask_at (c : Dev nD) (b : Fin 32) (u : Fin 1) (q : Fin 256) :
    (V m c main_v17 : S32x1x256.Idx → EReal) (ix3 b u q)
      = maskAdd ((m ((c : Thread nD τ).loc main_arg3) : S32x256.Idx → BitVec 32) (ix2 b q))
          ((m ((c : Thread nD τ).loc main_arg7) : S1.Idx → EReal) (ix1 (0 : Fin 1))) := by
  dsimp only [V, hostOps0]
  after_results
  unfold maskAdd
  refine congrArg₂ (· + ·) ?_ ?_
  · refine (broadcastInDim_apply _ _ _ (ix3 b u q) (ix2 b q) (fun a => match a with
      | ⟨0, _⟩ => by show b.val = if (32 : Nat) = 1 then 0 else b.val; rw [if_neg (by decide)]
      | ⟨1, _⟩ => by show q.val = if (256 : Nat) = 1 then 0 else q.val; rw [if_neg (by decide)])).trans ?_
    refine congrArg₂ (· * ·) ?_ (congrArg₂ (· - ·) ?_ rfl)
    · exact broadcastInDim_apply _ _ _ (ix2 b q) ix0 (fun a => a.elim0)
    · exact broadcastInDim_apply _ _ _ (ix2 b q) ix0 (fun a => a.elim0)
  · refine (broadcastInDim_apply _ _ _ (ix3 b u q) (ix3 (0 : Fin 1) (0 : Fin 1) (0 : Fin 1)) (fun a => match a with
      | ⟨0, _⟩ => by show 0 = if (1 : Nat) = 1 then 0 else _; rw [if_pos rfl]
      | ⟨1, _⟩ => by show 0 = if (1 : Nat) = 1 then 0 else _; rw [if_pos rfl]
      | ⟨2, _⟩ => by show 0 = if (1 : Nat) = 1 then 0 else _; rw [if_pos rfl])).trans ?_
    exact broadcastInDim_apply _ _ _ (ix3 (0 : Fin 1) (0 : Fin 1) (0 : Fin 1)) (ix1 (0 : Fin 1)) (fun a => match a with
      | ⟨0, _⟩ => by show 0 = if (1 : Nat) = 1 then 0 else _; rw [if_pos rfl])

/-- The first weight column reshaped to a row. -/
theorem w0_at (c : Dev nD) (u : Fin 1) (d : Fin 128) :
    (V m c main_v18 : S1x128.Idx → EReal) (ix2 u d)
      = (m ((c : Thread nD τ).loc main_arg4) : S128x1.Idx → EReal) (ix2 d (0 : Fin 1)) := by
  dsimp only [V, hostOps0]
  after_results
  refine shapeCast_apply _ _ (ix2 u d) (ix2 d (0 : Fin 1)) ?_
  have hu : u.val = 0 := by omega
  rw [Shape.rowMajor_val_two, Shape.rowMajor_val_two]
  show d.val * 1 + 0 = u.val * 128 + d.val
  omega

/-- The second weight column reshaped to a row. -/
theorem w1_at (c : Dev nD) (u : Fin 1) (d : Fin 128) :
    (V m c main_v19 : S1x128.Idx → EReal) (ix2 u d)
      = (m ((c : Thread nD τ).loc main_arg5) : S128x1.Idx → EReal) (ix2 d (0 : Fin 1)) := by
  dsimp only [V, hostOps0]
  after_results
  refine shapeCast_apply _ _ (ix2 u d) (ix2 d (0 : Fin 1)) ?_
  have hu : u.val = 0 := by omega
  rw [Shape.rowMajor_val_two, Shape.rowMajor_val_two]
  show d.val * 1 + 0 = u.val * 128 + d.val
  omega

/-- The third weight array, already a row up to unit axes. -/
theorem w2_at (c : Dev nD) (u : Fin 1) (d : Fin 128) :
    (V m c main_v20 : S1x128.Idx → EReal) (ix2 u d)
      = (m ((c : Thread nD τ).loc main_arg6) : S1x1x128.Idx → EReal) (ix3 (0 : Fin 1) (0 : Fin 1) d) := by
  dsimp only [V, hostOps0]
  after_results
  refine shapeCast_apply _ _ (ix2 u d) (ix3 (0 : Fin 1) (0 : Fin 1) d) ?_
  have hu : u.val = 0 := by omega
  rw [Shape.rowMajor_val_three, Shape.rowMajor_val_two]
  show (0 * 1 + 0) * 128 + d.val = u.val * 128 + d.val
  omega

end Cert.KernelIdeal.Host

end
-- ==== Proof.KernelValue.lean ====
/-
  The kernel's result array as one function of its arguments.

  The grid has 32 points, one per batch element; at point `t` every moving window's block is batch `t` of its array and
  the three weight rows are whole. So the block the body leaves (KernelBody.lean) is the attention block of batch `t` of
  the arguments, the mask terms and the weights as the host operations before the call computed them (KernelHost.lean);
  the 32 output blocks tile the result array, which therefore ends holding `Garr` of the arguments.
-/
import proofs.«121643_j6047313952906_2_alg».proof.Proof.Gen.KernelIdeal.Value
import proofs.«121643_j6047313952906_2_alg».proof.Proof.KernelBody
import proofs.«121643_j6047313952906_2_alg».proof.Proof.KernelHost

noncomputable section

namespace Cert.KernelIdeal.Whole

open Cert.KernelIdeal Cert.KernelIdeal.Gen Idealize.ShloMosaic Idealize.ShloMosaic.TcCoe Idealize.SL.Sem
open Idealize.ShloMosaic.ValueIdx Cert.LibMatrix Cert.Attn Cert.KernelIdeal.Body
open Idealize.ShloMosaic.Pipeline (Dat)

variable (m : (ℓ : Loc nD τ sig) → Buf (Elt Ideal) ℓ) (ρ : Dev nD → PrngReg)

/-- The result array: the attention block of every batch element of the arguments. -/
abbrev result (c : Dev nD) : Buf (Elt Ideal) ((c : Thread nD τ).loc main_v21) :=
  Garr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- A grid point as a batch index. -/
abbrev batch (t : Fin cfg0.N) : Fin 32 := Fin.cast N_0 t

/-- The printed index maps, decided over the grid: the moving windows follow the batch index, the weight rows stay. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val ∧ win0_7.index t (1 : Fin 3) = 0 ∧ win0_7.index t (2 : Fin 3) = 0 :=
  (by decide +kernel : ∀ t : Fin grid0.N, _)

/-! ## The input blocks at a point -/

section
variable (c : Dev nD) (t : Fin cfg0.N)

theorem xc_blk : XC (iblk m c 0 t) = fun r d => (m ((c : Thread nD τ).loc main_arg0) : S32x2048x128.Idx → EReal) (ix3 (batch t) r d) := by
  obtain ⟨e0, e1, e2, -⟩ := idx_facts t
  funext r d
  show V m c main_arg0 (((cfg0.win 0).blk t).view.emb (ix3 (0 : Fin 1) r d)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 2048 + 1 * r.val = r.val; omega
  | ⟨2, _⟩ => show win0_0.index t (2 : Fin 3) * 128 + 1 * d.val = d.val; omega

theorem xq_blk : XQ (iblk m c 1 t) = fun q d => (m ((c : Thread nD τ).loc main_arg1) : S32x256x128.Idx → EReal) (ix3 (batch t) q d) := by
  obtain ⟨-, -, -, e0, e1, e2, -⟩ := idx_facts t
  funext q d
  show V m c main_arg1 (((cfg0.win 1).blk t).view.emb (ix3 (0 : Fin 1) q d)) = _
  rw [V_main_arg1]
  refine congrArg _ (funext fun a => Fin.ext ?_)
  match a with
  | ⟨0, _⟩ => show win0_1.index t (0 : Fin 3) * 1 + 1 * 0 = t.val; omega
  | ⟨1, _⟩ => show win0_1.index t (1 : Fin 3) * 256 + 1 * q.val = q.val; omega
  | ⟨2, _⟩ => show win0_1.index t (2 : Fin 3) * 128 + 1 * d.val = d.val; omega

theorem ca_blk : CA (iblk m c 2 t) = fun r => maskAdd ((m ((c : Thread nD τ).loc main_arg2) : S32x2048.Idx → BitVec 32) (ix2 (batch t) r))
    ((m ((c : Thread nD τ).loc main_arg7) : S1.Idx → EReal) (ix1 (0 : Fin 1))) := by
  obtain ⟨-, -, -, -, -, -, e0, e1, e2, -⟩ := idx_facts t
  funext r
  show (V m c main_v8 : S32x2048x1.Idx → EReal) (((cfg0.win 2).blk t).view.emb (ix3 (0 : Fin 1) r (0 : Fin 1))) = _
  have e : ((cfg0.win 2).blk t).view.emb (ix3 (0 : Fin 1) r (0 : Fin 1)) = ix3 (batch t) r (0 : Fin 1) :=
    funext fun a => Fin.ext (by
      match a with
      | ⟨0, _⟩ => show win0_2.index t (0 : Fin 3) * 1 + 1 * 0 = t.val; omega
      | ⟨1, _⟩ => show win0_2.index t (1 : Fin 3) * 2048 + 1 * r.val = r.val; omega
      | ⟨2, _⟩ => show win0_2.index t (2 : Fin 3) * 1 + 1 * 0 = 0; omega)
  rw [e]
  exact Host.cmask_at m c (batch t) r 0

theorem qa_blk : QA (iblk m c 3 t) = fun q => maskAdd ((m ((c : Thread nD τ).loc main_arg3) : S32x256.Idx → BitVec 32) (ix2 (batch t) q))
    ((m ((c : Thread nD τ).loc main_arg7) : S1.Idx → EReal) (ix1 (0 : Fin 1))) := by
  obtain ⟨-, -, -, -, -, -, -, -, -, e0, e1, e2, -⟩ := idx_facts t
  funext q
  show (V m c main_v17 : S32x1x256.Idx → EReal) (((cfg0.win 3).blk t).view.emb (ix3 (0 : Fin 1) (0 : Fin 1) q)) = _
  have e : ((cfg0.win 3).blk t).view.emb (ix3 (0 : Fin 1) (0 : Fin 1) q) = ix3 (batch t) (0 : Fin 1) q :=
    funext fun a => Fin.ext (by
      match a with
      | ⟨0, _⟩ => show win0_3.index t (0 : Fin 3) * 1 + 1 * 0 = t.val; omega
      | ⟨1, _⟩ => show win0_3.index t (1 : Fin 3) * 1 + 1 * 0 = 0; omega
      | ⟨2, _⟩ => show win0_3.index t (2 : Fin 3) * 256 + 1 * q.val = q.val; omega)
  rw [e]
  exact Host.qmask_at m c (batch t) 0 q

theorem w0_blk : WV (iblk m c 4 t) = fun d => (m ((c : Thread nD τ).loc main_arg4) : S128x1.Idx → EReal) (ix2 d (0 : Fin 1)) := by
  obtain ⟨-, -, -, -, -, -, -, -, -, -, -, -, e0, e1, -⟩ := idx_facts t
  funext d
  show (V m c main_v18 : S1x128.Idx → EReal) (((cfg0.win 4).blk t).view.emb (ix2 (0 : Fin 1) d)) = _
  have e : ((cfg0.win 4).blk t).view.emb (ix2 (0 : Fin 1) d) = ix2 (0 : Fin 1) d :=
    funext fun a => Fin.ext (by
      match a with
      | ⟨0, _⟩ => show win0_4.index t (0 : Fin 2) * 1 + 1 * 0 = 0; omega
      | ⟨1, _⟩ => show win0_4.index t (1 : Fin 2) * 128 + 1 * d.val = d.val; omega)
  rw [e]
  exact Host.w0_at m c 0 d

theorem w1_blk : WV (iblk m c 5 t) = fun d => (m ((c : Thread nD τ).loc main_arg5) : S128x1.Idx → EReal) (ix2 d (0 : Fin 1)) := by
  obtain ⟨-, -, -, -, -, -, -, -, -, -, -, -, -, -, e0, e1, -⟩ := idx_facts t
  funext d
  show (V m c main_v19 : S1x128.Idx → EReal) (((cfg0.win 5).blk t).view.emb (ix2 (0 : Fin 1) d)) = _
  have e : ((cfg0.win 5).blk t).view.emb (ix2 (0 : Fin 1) d) = ix2 (0 : Fin 1) d :=
    funext fun a => Fin.ext (by
      match a with
      | ⟨0, _⟩ => show win0_5.index t (0 : Fin 2) * 1 + 1 * 0 = 0; omega
      | ⟨1, _⟩ => show win0_5.index t (1 : Fin 2) * 128 + 1 * d.val = d.val; omega)
  rw [e]
  exact Host.w1_at m c 0 d

theorem w2_blk : WV (iblk m c 6 t) = fun d => (m ((c : Thread nD τ).loc main_arg6) : S1x1x128.Idx → EReal) (ix3 (0 : Fin 1) (0 : Fin 1) d) := by
  obtain ⟨-, -, -, -, -, -, -, -, -, -, -, -, -, -, -, -, e0, e1, -⟩ := idx_facts t
  funext d
  show (V m c main_v20 : S1x128.Idx → EReal) (((cfg0.win 6).blk t).view.emb (ix2 (0 : Fin 1) d)) = _
  have e : ((cfg0.win 6).blk t).view.emb (ix2 (0 : Fin 1) d) = ix2 (0 : Fin 1) d :=
    funext fun a => Fin.ext (by
      match a with
      | ⟨0, _⟩ => show win0_6.index t (0 : Fin 2) * 1 + 1 * 0 = 0; omega
      | ⟨1, _⟩ => show win0_6.index t (1 : Fin 2) * 128 + 1 * d.val = d.val; omega)
  rw [e]
  exact Host.w2_at m c 0 d
end

/-! ## What a point writes back, the cover, the array -/

/-- Point `t` writes back block `t` of the result. -/
theorem flushed_eq (c : Dev nD) (t : Fin cfg0.N) :
    (dats m 0 c).flushed 7 t = ((cfg0.win 7).blk t).view.read (Elt Ideal) (result m c) := by
  rw [Value.flushed7]
  obtain ⟨-, -, -, -, -, -, -, -, -, -, -, -, -, -, -, -, -, -, e0, e1, e2⟩ := idx_facts t
  funext y
  show out0_7 (iblk m c 0 t) (iblk m c 1 t) (iblk m c 2 t) (iblk m c 3 t) (iblk m c 4 t) (iblk m c 5 t) (iblk m c 6 t)
      ((cfg0.win 7).xinj (grid0.coords t) y) = result m c (((cfg0.win 7).blk t).view.emb y)
  rw [out_block, xc_blk, xq_blk, ca_blk, qa_blk, w0_blk, w1_blk, w2_blk]
  have h0 : (y 0).val < 1 := (y 0).isLt
  refine (Garr_apply _ _ _ _ _ _ _ _ (((cfg0.win 7).blk t).view.emb y) (batch t) _ _ ?_ ?_ ?_).symm
  · show win0_7.index t (0 : Fin 3) * 1 + 1 * (y 0).val = t.val; omega
  · show win0_7.index t (1 : Fin 3) * 2048 + 1 * (y 1).val = (y 1).val; omega
  · show win0_7.index t (2 : Fin 3) * 512 + 1 * (y 2).val = (y 2).val; omega

/-- An index of the result array is in point `t`'s block iff each coordinate is in the block's range. -/
theorem mem_blk (t : Fin cfg0.N) (i : S32x2048x512.Idx) :
    i ∈ ((cfg0.win 7).blk t).view.set ↔ ∀ a : Fin 3, win0_7.index t a * S1x2048x512.size a ≤ (i a).val
      ∧ (i a).val < win0_7.index t a * S1x2048x512.size a + S1x2048x512.size a := by
  show i ∈ ((View.whole main_v21).slice (win0_7.rect t)).set ↔ _
  rw [View.set_slice_whole, Rect.mem_set_unit]
  exact Iff.rfl

/-- Every index of the result array is in the block of its batch element's point. -/
theorem cover (c : Dev nD) (i : S32x2048x512.Idx) :
    ∃ t : Fin cfg0.N, (cfg0.win 7).flush t = true ∧ i ∈ ((cfg0.win 7).blk t).view.set := by
  have hi0 : (i 0).val < 32 := (i 0).isLt
  have hi1 : (i 1).val < 2048 := (i 1).isLt
  have hi2 : (i 2).val < 512 := (i 2).isLt
  refine ⟨Fin.cast N_0.symm ⟨(i 0).val, hi0⟩, flush0_7 _, ?_⟩
  obtain ⟨-, -, -, -, -, -, -, -, -, -, -, -, -, -, -, -, -, -, e0, e1, e2⟩ := idx_facts (Fin.cast N_0.symm ⟨(i 0).val, hi0⟩)
  have ev : (Fin.cast N_0.symm (⟨(i 0).val, hi0⟩ : Fin 32)).val = (i 0).val := rfl
  rw [mem_blk]
  intro a
  match a with
  | ⟨0, _⟩ => show win0_7.index _ (0 : Fin 3) * 1 ≤ (i 0).val ∧ (i 0).val < win0_7.index _ (0 : Fin 3) * 1 + 1; omega
  | ⟨1, _⟩ => show win0_7.index _ (1 : Fin 3) * 2048 ≤ (i 1).val ∧ (i 1).val < win0_7.index _ (1 : Fin 3) * 2048 + 2048; omega
  | ⟨2, _⟩ => show win0_7.index _ (2 : Fin 3) * 512 ≤ (i 2).val ∧ (i 2).val < win0_7.index _ (2 : Fin 3) * 512 + 512; omega

/-- So the result array ends holding `result`. -/
theorem final (c : Dev nD) : (dats m 0 c).arrAt 7 cfg0.N = result m c :=
  (dats m 0 c).arrAt_eq_of_cover 7 (result m c) (fun t _ => flushed_eq m c t) (cover c)

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v21) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Whole

end
-- ==== Proof.RefAttention.lean ====
/-
  The reference's two attention matrices, read entry by entry at the extended reals.

  With the argument arrays read as families of matrices — `a0[b][c,d]`, `a1[b][q,d]`, the integer masks `a2[b][c]`,
  `a3[b][q]`, the weight columns `a4[d]`, `a5[d]`, the weight row `a6[d]` and the bias `a7` — the reference's row softmax
  at `(b, c, q)` is the attention block's row attention of batch `b`, and its column softmax the column attention
  (Spec.lean), the additive mask terms being `-1e30 · (1 - mask) + bias`.
-/
import proofs.«121643_j6047313952906_2_alg».proof.Proof.ReferenceRead
import proofs.«121643_j6047313952906_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Read Idealize.ShloMosaic Idealize.ShloMosaic.ValueIdx Cert.LibMatrix Cert.Attn

/-! ## The argument arrays as families of matrices -/

abbrev A0 (x0 : (⟨S32x2048x128, .f32⟩ : BufTy).Contents (Elt Ideal)) : Fin 32 → Fin 2048 → Fin 128 → EReal := fun b c d => x0 (ix3 b c d)
abbrev A1 (x1 : (⟨S32x256x128, .f32⟩ : BufTy).Contents (Elt Ideal)) : Fin 32 → Fin 256 → Fin 128 → EReal := fun b q d => x1 (ix3 b q d)
abbrev A2 (x2 : (⟨S32x2048, .i32⟩ : BufTy).Contents (Elt Ideal)) : Fin 32 → Fin 2048 → BitVec 32 := fun b c => x2 (ix2 b c)
abbrev A3 (x3 : (⟨S32x256, .i32⟩ : BufTy).Contents (Elt Ideal)) : Fin 32 → Fin 256 → BitVec 32 := fun b q => x3 (ix2 b q)
abbrev A4 (x4 : (⟨S128x1, .f32⟩ : BufTy).Contents (Elt Ideal)) : Fin 128 → EReal := fun d => x4 (ix2 d (0 : Fin 1))
abbrev A6 (x6 : (⟨S1x1x128, .f32⟩ : BufTy).Contents (Elt Ideal)) : Fin 128 → EReal := fun d => x6 (ix3 (0 : Fin 1) (0 : Fin 1) d)
abbrev A7 (x7 : (⟨S1, .f32⟩ : BufTy).Contents (Elt Ideal)) : EReal := x7 (ix1 (0 : Fin 1))

variable (x0 : (⟨S32x2048x128, .f32⟩ : BufTy).Contents (Elt Ideal)) (x1 : (⟨S32x256x128, .f32⟩ : BufTy).Contents (Elt Ideal))
  (x2 : (⟨S32x2048, .i32⟩ : BufTy).Contents (Elt Ideal)) (x3 : (⟨S32x256, .i32⟩ : BufTy).Contents (Elt Ideal))
  (x4 x5 : (⟨S128x1, .f32⟩ : BufTy).Contents (Elt Ideal)) (x6 : (⟨S1x1x128, .f32⟩ : BufTy).Contents (Elt Ideal))
  (x7 : (⟨S1, .f32⟩ : BufTy).Contents (Elt Ideal))

/-! ## The three scores and the bias, read at coordinates -/

/-- The broadcast context score at `(b, c, q)` is the linear score of context row `c`. -/
theorem v6_at (b : Fin 32) (c : Fin 2048) (q : Fin 256) :
    val_main_v6 (F := Ideal) x0 x4 (ix3 b c q) = lin (A0 x0 b) (A4 x4) c := by
  rw [val_main_v6_apply, val_main_v0_apply]
  unfold lin
  refine Finset.sum_congr rfl fun d _ => ?_
  refine congrArg₂ (· * ·) (congrArg x0 ?_) (congrArg x4 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The broadcast question score at `(b, c, q)` is the linear score of question row `q`. -/
theorem v7_at (b : Fin 32) (c : Fin 2048) (q : Fin 256) :
    val_main_v7 (F := Ideal) x1 x5 (ix3 b c q) = lin (A1 x1 b) (A4 x5) q := by
  rw [val_main_v7_apply, val_main_v2_apply, val_main_v1_apply]
  unfold lin
  refine Finset.sum_congr rfl fun d _ => ?_
  refine (mul_comm _ _).trans (congrArg₂ (· * ·) (congrArg x1 ?_) (congrArg x5 ?_))
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl)

/-- The batched product at `(b, c, q)` is the trilinear score. -/
theorem v5_at (b : Fin 32) (c : Fin 2048) (q : Fin 256) :
    val_main_v5 (F := Ideal) x0 x1 x6 (ix3 b c q) = tri (A0 x0 b) (A1 x1 b) (A6 x6) c q := by
  rw [val_main_v5_apply]
  unfold tri
  refine Finset.sum_congr rfl fun d _ => ?_
  rw [val_main_v4_apply, val_main_v3_apply]
  refine congrArg₂ (· * ·) (congrArg₂ (· * ·) (congrArg x0 ?_) (congrArg x6 ?_)) (congrArg x1 ?_)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)
  · exact funext fun a => Fin.ext (by match a with | ⟨0, _⟩ => rfl | ⟨1, _⟩ => rfl | ⟨2, _⟩ => rfl)

/-- The broadcast bias reads the bias everywhere. -/
theorem v11_at (b : Fin 32) (c : Fin 2048) (q : Fin 256) :
    val_main_v11 (F := Ideal) x7 (ix3 b c q) = A7 x7 := by
  rw [val_main_v11_apply, val_main_v10_apply]
  exact congrArg x7 (funext fun a => Fin.ext (by match a with | ⟨0, _⟩ => rfl))

/-- The unmasked similarity with the bias, at `(b, c, q)`. -/
theorem v12_at (b : Fin 32) (c : Fin 2048) (q : Fin 256) :
    val_main_v12 (F := Ideal) x0 x1 x4 x5 x6 x7 (ix3 b c q)
      = lin (A0 x0 b) (A4 x4) c + lin (A1 x1 b) (A4 x5) q + tri (A0 x0 b) (A1 x1 b) (A6 x6) c q + A7 x7 := by
  rw [val_main_v12_apply, val_main_v9_apply, val_main_v8_apply, v6_at, v7_at, v5_at, v11_at]
  rfl

/-! ## The two masked similarities -/

/-- The broadcast question mask term at `(b, c, q)`. -/
theorem v21_at (b : Fin 32) (c : Fin 2048) (q : Fin 256) :
    val_main_v21 (F := Ideal) x3 (ix3 b c q)
      = Ideal.ofBits .f32 0xF149F2CA#32 * (Ideal.ofBits .f32 0x3F800000#32 - FloatOps.sitofp (F := Ideal) .f32 (A3 x3 b q)) := by
  rw [val_main_v21_apply, val_main_v20_apply, val_main_v19_apply, val_main_v18_apply, val_main_v17_apply,
    val_main_v14_apply, val_main_v13_apply, val_main_cst_apply, val_main_cst_0_apply]
  refine congrArg (fun z => Ideal.ofBits .f32 0xF149F2CA#32 * (Ideal.ofBits .f32 0x3F800000#32 - FloatOps.sitofp (F := Ideal) .f32 (x3 z))) ?_
  exact funext fun a => Fin.ext (by match a with | ⟨0, _⟩ => rfl | ⟨1, _⟩ => rfl)

/-- The broadcast context mask term at `(b, c, q)`. -/
theorem v38_at (b : Fin 32) (c : Fin 2048) (q : Fin 256) :
    val_main_v38 (F := Ideal) x2 (ix3 b c q)
      = Ideal.ofBits .f32 0xF149F2CA#32 * (Ideal.ofBits .f32 0x3F800000#32 - FloatOps.sitofp (F := Ideal) .f32 (A2 x2 b c)) := by
  rw [val_main_v38_apply, val_main_v37_apply, val_main_v36_apply, val_main_v35_apply, val_main_v34_apply,
    val_main_v16_apply, val_main_v15_apply, val_main_cst_4_apply, val_main_cst_5_apply]
  refine congrArg (fun z => Ideal.ofBits .f32 0xF149F2CA#32 * (Ideal.ofBits .f32 0x3F800000#32 - FloatOps.sitofp (F := Ideal) .f32 (x2 z))) ?_
  exact funext fun a => Fin.ext (by match a with | ⟨0, _⟩ => rfl | ⟨1, _⟩ => rfl)

/-- The similarity with the question mask added, at `(b, c, q)`. -/
theorem v22_at (b : Fin 32) (c : Fin 2048) (q : Fin 256) :
    val_main_v22 (F := Ideal) x0 x1 x3 x4 x5 x6 x7 (ix3 b c q)
      = scoreQ (A0 x0 b) (A1 x1 b) (fun q' => maskAdd (A3 x3 b q') (A7 x7)) (A4 x4) (A4 x5) (A6 x6) c q := by
  rw [val_main_v22_apply, v12_at, v21_at]
  unfold scoreQ maskAdd
  simp only [Ideal.addf_def]
  ac_rfl

/-- The similarity with the context mask added, at `(b, c, q)`. -/
theorem v39_at (b : Fin 32) (c : Fin 2048) (q : Fin 256) :
    val_main_v39 (F := Ideal) x0 x1 x2 x4 x5 x6 x7 (ix3 b c q)
      = scoreC (A0 x0 b) (A1 x1 b) (fun c' => maskAdd (A2 x2 b c') (A7 x7)) (A4 x4) (A4 x5) (A6 x6) c q := by
  rw [val_main_v39_apply, v12_at, v38_at]
  unfold scoreC maskAdd
  simp only [Ideal.addf_def]
  ac_rfl

/-! ## The row softmax -/

/-- The maximum over the question axis at `(b, c)` is the maximum of the row of masked similarities. -/
theorem v23_at (b : Fin 32) (c : Fin 2048) :
    val_main_v23 (F := Ideal) x0 x1 x3 x4 x5 x6 x7 (ix2 b c)
      = vmax (fun q' => scoreQ (A0 x0 b) (A1 x1 b) (fun q' => maskAdd (A3 x3 b q') (A7 x7)) (A4 x4) (A4 x5) (A6 x6) c q') := by
  unfold val_main_v23
  have hR : S32x2048x256.Reduces [2] S32x2048 := by decide
  refine (Host.reduce_eq_fold_single FloatOps.maximumf _ _ Gen.reducesTo_S32x2048x256_S32x2048_d2 hR Gen.h_S_ (ix2 b c)).trans ?_
  have e : (val_main_v22 (F := Ideal) x0 x1 x3 x4 x5 x6 x7 ∘ hR.lift (ix2 b c))
      = fun k : Fin 256 => scoreQ (A0 x0 b) (A1 x1 b) (fun q' => maskAdd (A3 x3 b q') (A7 x7)) (A4 x4) (A4 x5) (A6 x6) c k :=
    funext fun k => (congrArg (val_main_v22 (F := Ideal) x0 x1 x3 x4 x5 x6 x7) (funext fun a => Fin.ext (by
      match a with
      | ⟨0, _⟩ => rfl
      | ⟨1, _⟩ => rfl
      | ⟨2, _⟩ => rfl))).trans (v22_at x0 x1 x3 x4 x5 x6 x7 b c k)
  rw [e]
  rfl

/-- The row maximum broadcast back, at `(b, c, q)`. -/
theorem v27_at (b : Fin 32) (c : Fin 2048) (q : Fin 256) :
    val_main_v27 (F := Ideal) x0 x1 x3 x4 x5 x6 x7 (ix3 b c q)
      = vmax (fun q' => scoreQ (A0 x0 b) (A1 x1 b) (fun q' => maskAdd (A3 x3 b q') (A7 x7)) (A4 x4) (A4 x5) (A6 x6) c q') := by
  rw [val_main_v27_apply, val_main_v26_apply]
  have e : idx_main_v26 (idx_main_v27 (ix3 b c q)) = ix2 b c :=
    funext fun a => Fin.ext (by match a with | ⟨0, _⟩ => rfl | ⟨1, _⟩ => rfl)
  rw [e, val_main_v25_apply, val_main_v24_apply, val_main_cst_2_apply, v23_at]
  exact max_vmax _

/-- The exponential of the shifted row similarity, at `(b, c, q)`. -/
theorem v29_at (b : Fin 32) (c : Fin 2048) (q : Fin 256) :
    val_main_v29 (F := Ideal) x0 x1 x3 x4 x5 x6 x7 (ix3 b c q)
      = Ideal.exp (scoreQ (A0 x0 b) (A1 x1 b) (fun q' => maskAdd (A3 x3 b q') (A7 x7)) (A4 x4) (A4 x5) (A6 x6) c q
          - vmax (fun q' => scoreQ (A0 x0 b) (A1 x1 b) (fun q' => maskAdd (A3 x3 b q') (A7 x7)) (A4 x4) (A4 x5) (A6 x6) c q')) := by
  rw [val_main_v29_apply, val_main_v28_apply, v22_at, v27_at]
  rfl

/-- The row sum of exponentials broadcast back, at `(b, c, q)`. -/
theorem v32_at (b : Fin 32) (c : Fin 2048) (q : Fin 256) :
    val_main_v32 (F := Ideal) x0 x1 x3 x4 x5 x6 x7 (ix3 b c q)
      = ∑ k : Fin 256, Ideal.exp (scoreQ (A0 x0 b) (A1 x1 b) (fun q' => maskAdd (A3 x3 b q') (A7 x7)) (A4 x4) (A4 x5) (A6 x6) c k
          - vmax (fun q' => scoreQ (A0 x0 b) (A1 x1 b) (fun q' => maskAdd (A3 x3 b q') (A7 x7)) (A4 x4) (A4 x5) (A6 x6) c q')) := by
  rw [val_main_v32_apply, val_main_v31_apply, val_main_v30_apply, val_main_cst_3_apply, Ideal.ofBits_def,
    Ideal.ofBits_zero_f32, zero_add]
  refine Finset.sum_congr rfl fun k _ => ?_
  refine (congrArg (val_main_v29 (F := Ideal) x0 x1 x3 x4 x5 x6 x7) (funext fun a => Fin.ext (by
    match a with
    | ⟨0, _⟩ => rfl
    | ⟨1, _⟩ => rfl
    | ⟨2, _⟩ => rfl))).trans (v29_at x0 x1 x3 x4 x5 x6 x7 b c k)

/-- The reference's softmax over the question axis is the row attention. -/
theorem v33_at (b : Fin 32) (c : Fin 2048) (q : Fin 256) :
    val_main_v33 (F := Ideal) x0 x1 x3 x4 x5 x6 x7 (ix3 b c q)
      = attnRow (A0 x0 b) (A1 x1 b) (fun q' => maskAdd (A3 x3 b q') (A7 x7)) (A4 x4) (A4 x5) (A6 x6) c q := by
  rw [val_main_v33_apply, v29_at, v32_at]
  rfl

/-! ## The column softmax -/

/-- The maximum over the context axis at `(b, q)` is the maximum of the column of masked similarities. -/
theorem v40_at (b : Fin 32) (q : Fin 256) :
    val_main_v40 (F := Ideal) x0 x1 x2 x4 x5 x6 x7 (ix2 b q)
      = vmax (fun c' => scoreC (A0 x0 b) (A1 x1 b) (fun c' => maskAdd (A2 x2 b c') (A7 x7)) (A4 x4) (A4 x5) (A6 x6) c' q) := by
  unfold val_main_v40
  have hR : S32x2048x256.Reduces [1] S32x256 := by decide
  refine (Host.reduce_eq_fold_single FloatOps.maximumf _ _ Gen.reducesTo_S32x2048x256_S32x256_d1 hR Gen.h_S_ (ix2 b q)).trans ?_
  have e : (val_main_v39 (F := Ideal) x0 x1 x2 x4 x5 x6 x7 ∘ hR.lift (ix2 b q))
      = fun k : Fin 2048 => scoreC (A0 x0 b) (A1 x1 b) (fun c' => maskAdd (A2 x2 b c') (A7 x7)) (A4 x4) (A4 x5) (A6 x6) k q :=
    funext fun k => (congrArg (val_main_v39 (F := Ideal) x0 x1 x2 x4 x5 x6 x7) (funext fun a => Fin.ext (by
      match a with
      | ⟨0, _⟩ => rfl
      | ⟨1, _⟩ => rfl
      | ⟨2, _⟩ => rfl))).trans (v39_at x0 x1 x2 x4 x5 x6 x7 b k q)
  rw [e]
  rfl

/-- The column maximum broadcast back, at `(b, c, q)`. -/
theorem v44_at (b : Fin 32) (c : Fin 2048) (q : Fin 256) :
    val_main_v44 (F := Ideal) x0 x1 x2 x4 x5 x6 x7 (ix3 b c q)
      = vmax (fun c' => scoreC (A0 x0 b) (A1 x1 b) (fun c' => maskAdd (A2 x2 b c') (A7 x7)) (A4 x4) (A4 x5) (A6 x6) c' q) := by
  rw [val_main_v44_apply, val_main_v43_apply]
  have e : idx_main_v43 (idx_main_v44 (ix3 b c q)) = ix2 b q :=
    funext fun a => Fin.ext (by match a with | ⟨0, _⟩ => rfl | ⟨1, _⟩ => rfl)
  rw [e, val_main_v42_apply, val_main_v41_apply, val_main_cst_7_apply, v40_at]
  exact max_vmax _

/-- The exponential of the shifted column similarity, at `(b, c, q)`. -/
theorem v46_at (b : Fin 32) (c : Fin 2048) (q : Fin 256) :
    val_main_v46 (F := Ideal) x0 x1 x2 x4 x5 x6 x7 (ix3 b c q)
      = Ideal.exp (scoreC (A0 x0 b) (A1 x1 b) (fun c' => maskAdd (A2 x2 b c') (A7 x7)) (A4 x4) (A4 x5) (A6 x6) c q
          - vmax (fun c' => scoreC (A0 x0 b) (A1 x1 b) (fun c' => maskAdd (A2 x2 b c') (A7 x7)) (A4 x4) (A4 x5) (A6 x6) c' q)) := by
  rw [val_main_v46_apply, val_main_v45_apply, v39_at, v44_at]
  rfl

/-- The column sum of exponentials broadcast back, at `(b, c, q)`. -/
theorem v49_at (b : Fin 32) (c : Fin 2048) (q : Fin 256) :
    val_main_v49 (F := Ideal) x0 x1 x2 x4 x5 x6 x7 (ix3 b c q)
      = ∑ k : Fin 2048, Ideal.exp (scoreC (A0 x0 b) (A1 x1 b) (fun c' => maskAdd (A2 x2 b c') (A7 x7)) (A4 x4) (A4 x5) (A6 x6) k q
          - vmax (fun c' => scoreC (A0 x0 b) (A1 x1 b) (fun c' => maskAdd (A2 x2 b c') (A7 x7)) (A4 x4) (A4 x5) (A6 x6) c' q)) := by
  rw [val_main_v49_apply, val_main_v48_apply, val_main_v47_apply, val_main_cst_8_apply, Ideal.ofBits_def,
    Ideal.ofBits_zero_f32, zero_add]
  refine Finset.sum_congr rfl fun k _ => ?_
  refine (congrArg (val_main_v46 (F := Ideal) x0 x1 x2 x4 x5 x6 x7) (funext fun a => Fin.ext (by
    match a with
    | ⟨0, _⟩ => rfl
    | ⟨1, _⟩ => rfl
    | ⟨2, _⟩ => rfl))).trans (v46_at x0 x1 x2 x4 x5 x6 x7 b k q)

/-- The reference's softmax over the context axis is the column attention. -/
theorem v50_at (b : Fin 32) (c : Fin 2048) (q : Fin 256) :
    val_main_v50 (F := Ideal) x0 x1 x2 x4 x5 x6 x7 (ix3 b c q)
      = attnCol (A0 x0 b) (A1 x1 b) (fun c' => maskAdd (A2 x2 b c') (A7 x7)) (A4 x4) (A4 x5) (A6 x6) c q := by
  rw [val_main_v50_apply, v46_at, v49_at]
  rfl

end Cert.ReferenceIdeal.RefValue

end
-- ==== Proof.RefOut.lean ====
/-
  The reference's result array as one function of its arguments.

  From the two attention matrices (RefAttention.lean): the reference's three contractions are context-to-query,
  the attention-weighted context (its factors in the other order, so each term is commuted) and query-to-context; its
  result is the concatenation along the last axis of the context, context-to-query and their two products with the
  context — `Garr` of the arguments (Spec.lean), quarter by quarter.
-/
import proofs.«121643_j6047313952906_2_alg».proof.Proof.RefAttention

noncomputable section

namespace Cert.ReferenceIdeal.RefValue

open Cert.ReferenceIdeal Cert.ReferenceIdeal.Read Idealize.ShloMosaic Idealize.ShloMosaic.ValueIdx Cert.LibMatrix Cert.Attn

variable (x0 : (⟨S32x2048x128, .f32⟩ : BufTy).Contents (Elt Ideal)) (x1 : (⟨S32x256x128, .f32⟩ : BufTy).Contents (Elt Ideal))
  (x2 : (⟨S32x2048, .i32⟩ : BufTy).Contents (Elt Ideal)) (x3 : (⟨S32x256, .i32⟩ : BufTy).Contents (Elt Ideal))
  (x4 x5 : (⟨S128x1, .f32⟩ : BufTy).Contents (Elt Ideal)) (x6 : (⟨S1x1x128, .f32⟩ : BufTy).Contents (Elt Ideal))
  (x7 : (⟨S1, .f32⟩ : BufTy).Contents (Elt Ideal))

/-- The first contraction is context-to-query. -/
theorem v52_at (b : Fin 32) (c : Fin 2048) (d : Fin 128) :
    val_main_v52 (F := Ideal) x0 x1 x3 x4 x5 x6 x7 (ix3 b c d) = c2q (A0 x0 b) (A1 x1 b) (fun q' => maskAdd (A3 x3 b q') (A7 x7)) (A4 x4) (A4 x5) (A6 x6) c d := by
  rw [val_main_v52_apply]
  unfold c2q
  refine Finset.sum_congr rfl fun q _ => congrArg₂ (· * ·) ?_ ?_
  · have e : lidx_main_v52 (ix3 b c d) q = ix3 b c q := (funext fun a => Fin.ext (by
      match a with
      | ⟨0, _⟩ => rfl
      | ⟨1, _⟩ => rfl
      | ⟨2, _⟩ => rfl))
    rw [e]
    exact v33_at x0 x1 x3 x4 x5 x6 x7 b c q
  · exact congrArg x1 (funext fun a => Fin.ext (by
      match a with
      | ⟨0, _⟩ => rfl
      | ⟨1, _⟩ => rfl
      | ⟨2, _⟩ => rfl))

/-- The second contraction, over the context rows, is the attention-weighted context, transposed. -/
theorem v53_at (b : Fin 32) (d : Fin 128) (q : Fin 256) :
    val_main_v53 (F := Ideal) x0 x1 x2 x4 x5 x6 x7 (ix3 b d q) = ctx (A0 x0 b) (A1 x1 b) (fun c' => maskAdd (A2 x2 b c') (A7 x7)) (A4 x4) (A4 x5) (A6 x6) q d := by
  rw [val_main_v53_apply]
  unfold ctx
  refine Finset.sum_congr rfl fun c _ => (mul_comm _ _).trans (congrArg₂ (· * ·) ?_ ?_)
  · rw [val_main_v51_apply]
    have e : idx_main_v51 (ridx_main_v53 (ix3 b d q) c) = ix3 b c q := (funext fun a => Fin.ext (by
      match a with
      | ⟨0, _⟩ => rfl
      | ⟨1, _⟩ => rfl
      | ⟨2, _⟩ => rfl))
    rw [e]
    exact v50_at x0 x1 x2 x4 x5 x6 x7 b c q
  · exact congrArg x0 (funext fun a => Fin.ext (by
      match a with
      | ⟨0, _⟩ => rfl
      | ⟨1, _⟩ => rfl
      | ⟨2, _⟩ => rfl))

/-- The third contraction is query-to-context. -/
theorem v54_at (b : Fin 32) (c : Fin 2048) (d : Fin 128) :
    val_main_v54 (F := Ideal) x0 x1 x2 x3 x4 x5 x6 x7 (ix3 b c d) = q2c (A0 x0 b) (A1 x1 b) (fun c' => maskAdd (A2 x2 b c') (A7 x7)) (fun q' => maskAdd (A3 x3 b q') (A7 x7)) (A4 x4) (A4 x5) (A6 x6) c d := by
  rw [val_main_v54_apply]
  unfold q2c
  refine Finset.sum_congr rfl fun q _ => congrArg₂ (· * ·) ?_ ?_
  · have e : lidx_main_v54 (ix3 b c d) q = ix3 b c q := (funext fun a => Fin.ext (by
      match a with
      | ⟨0, _⟩ => rfl
      | ⟨1, _⟩ => rfl
      | ⟨2, _⟩ => rfl))
    rw [e]
    exact v33_at x0 x1 x3 x4 x5 x6 x7 b c q
  · have e : ridx_main_v54 (ix3 b c d) q = ix3 b d q := (funext fun a => Fin.ext (by
      match a with
      | ⟨0, _⟩ => rfl
      | ⟨1, _⟩ => rfl
      | ⟨2, _⟩ => rfl))
    rw [e]
    exact v53_at x0 x1 x2 x4 x5 x6 x7 b d q

/-- Lane `128·k + d` of the concatenated result is lane `d` of quarter `k` of the output row. -/
theorem v57_quarter (k : Fin 4) (b : Fin 32) (c : Fin 2048) (d : Fin 128) (j : Fin 512) (hj : j.val = 128 * k.val + d.val) :
    val_main_v57 (F := Ideal) x0 x1 x2 x3 x4 x5 x6 x7 (ix3 b c j) = outQ (A0 x0 b) (A1 x1 b) (fun c' => maskAdd (A2 x2 b c') (A7 x7)) (fun q' => maskAdd (A3 x3 b q') (A7 x7)) (A4 x4) (A4 x5) (A6 x6) k c d := by
  unfold val_main_v57
  match k, hj with
  | ⟨0, _⟩, hj =>
    refine (concatenate_apply_piece (2 : Fin S32x2048x512.rank) _ _ (ix3 b c j) 0 (by show (0 : Nat) < 4; omega) S32x2048x128 _ rfl rfl (0) (by rfl)
      (ix3 b c d) (fun a ha => ?_) ?_).trans ?_
    · match a, ha with
      | ⟨0, _⟩, _ => rfl
      | ⟨1, _⟩, _ => rfl
      | ⟨2, _⟩, ha => exact absurd rfl ha
    · show 0 + d.val = j.val
      have : (⟨0, by decide⟩ : Fin 4).val = 0 := rfl
      omega
    · rfl
  | ⟨1, _⟩, hj =>
    refine (concatenate_apply_piece (2 : Fin S32x2048x512.rank) _ _ (ix3 b c j) 1 (by show (1 : Nat) < 4; omega) S32x2048x128 _ rfl rfl (128) (by rfl)
      (ix3 b c d) (fun a ha => ?_) ?_).trans ?_
    · match a, ha with
      | ⟨0, _⟩, _ => rfl
      | ⟨1, _⟩, _ => rfl
      | ⟨2, _⟩, ha => exact absurd rfl ha
    · show 128 + d.val = j.val
      have : (⟨1, by decide⟩ : Fin 4).val = 1 := rfl
      omega
    · exact v52_at x0 x1 x3 x4 x5 x6 x7 b c d
  | ⟨2, _⟩, hj =>
    refine (concatenate_apply_piece (2 : Fin S32x2048x512.rank) _ _ (ix3 b c j) 2 (by show (2 : Nat) < 4; omega) S32x2048x128 _ rfl rfl (256) (by rfl)
      (ix3 b c d) (fun a ha => ?_) ?_).trans ?_
    · match a, ha with
      | ⟨0, _⟩, _ => rfl
      | ⟨1, _⟩, _ => rfl
      | ⟨2, _⟩, ha => exact absurd rfl ha
    · show 256 + d.val = j.val
      have : (⟨2, by decide⟩ : Fin 4).val = 2 := rfl
      omega
    · exact congrArg₂ (· * ·) rfl (v52_at x0 x1 x3 x4 x5 x6 x7 b c d)
  | ⟨3, _⟩, hj =>
    refine (concatenate_apply_piece (2 : Fin S32x2048x512.rank) _ _ (ix3 b c j) 3 (by show (3 : Nat) < 4; omega) S32x2048x128 _ rfl rfl (384) (by rfl)
      (ix3 b c d) (fun a ha => ?_) ?_).trans ?_
    · match a, ha with
      | ⟨0, _⟩, _ => rfl
      | ⟨1, _⟩, _ => rfl
      | ⟨2, _⟩, ha => exact absurd rfl ha
    · show 384 + d.val = j.val
      have : (⟨3, by decide⟩ : Fin 4).val = 3 := rfl
      omega
    · exact congrArg₂ (· * ·) rfl (v54_at x0 x1 x2 x3 x4 x5 x6 x7 b c d)

/-- The reference's result is `Garr` of its arguments. -/
theorem result_eq : val_main_v57 (F := Ideal) x0 x1 x2 x3 x4 x5 x6 x7 = Garr x0 x1 x2 x3 x4 x5 x6 x7 := by
  funext i
  obtain ⟨b, c, j, rfl⟩ : ∃ (b : Fin 32) (c : Fin 2048) (j : Fin 512), i = ix3 b c j := ⟨i 0, i 1, i 2, eq_ix3 i⟩
  have hj := j.isLt
  have hk : j.val / 128 < 4 := by omega
  have hd : j.val % 128 < 128 := Nat.mod_lt _ (by norm_num)
  have hjk : j.val = 128 * (⟨j.val / 128, hk⟩ : Fin 4).val + (⟨j.val % 128, hd⟩ : Fin 128).val := by
    show j.val = 128 * (j.val / 128) + j.val % 128
    omega
  refine (v57_quarter x0 x1 x2 x3 x4 x5 x6 x7 ⟨j.val / 128, hk⟩ b c ⟨j.val % 128, hd⟩ j hjk).trans ?_
  refine ((Garr_apply x0 x1 x2 x3 x4 x5 x6 x7 (ix3 b c j) b c j rfl rfl rfl).trans
    (outRow_at _ _ _ _ _ _ _ ⟨j.val / 128, hk⟩ c ⟨j.val % 128, hd⟩ c j rfl hjk)).symm

end Cert.ReferenceIdeal.RefValue

end
-- ==== Proof.RefRun.lean ====
/-
  The reference's run with its result read stage by stage.

  Every weakly fair execution of the reference terminates with each buffer at the fold of its 68 host operations over
  the launch contents. The result buffer is written by the last operation, a concatenation of four operands; each
  operand's buffer, which that last operation leaves alone, holds its staged value (the context argument, the first
  contraction, and the two products), so the result is the staged concatenation.
-/
import proofs.«121643_j6047313952906_2_alg».proof.Proof.ReferenceRead
import Idealize.ShloMosaic.Lib.StableHlo.Run

noncomputable section

namespace Cert.ReferenceIdeal.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg)

set_option maxRecDepth 65536 in
set_option maxHeartbeats 27200000 in
/-- The context argument is never written. -/
theorem after_arg0 (c : Dev nD) :
    after (ops (F := Ideal)) (launchContents m c) (Proc.devRef .tc main_arg0) = m ((c.tc : Thread nD τ).loc main_arg0) := by
  after_results_simp <;> rfl

set_option maxRecDepth 65536 in
set_option maxHeartbeats 27200000 in
/-- The first contraction's buffer holds its staged value. -/
theorem after_v52 (c : Dev nD) :
    after (ops (F := Ideal)) (launchContents m c) (Proc.devRef .tc main_v52) = val_main_v52 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp <;> rfl

set_option maxRecDepth 65536 in
set_option maxHeartbeats 27200000 in
/-- The product of the context with the first contraction. -/
theorem after_v55 (c : Dev nD) :
    after (ops (F := Ideal)) (launchContents m c) (Proc.devRef .tc main_v55) = val_main_v55 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp <;> rfl

set_option maxRecDepth 65536 in
set_option maxHeartbeats 27200000 in
/-- The product of the context with the third contraction. -/
theorem after_v56 (c : Dev nD) :
    after (ops (F := Ideal)) (launchContents m c) (Proc.devRef .tc main_v56) = val_main_v56 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  after_results_simp <;> rfl

set_option maxRecDepth 65536 in
set_option maxHeartbeats 27200000 in
/-- The result buffer holds the staged concatenation. -/
theorem after_v57 (c : Dev nD) :
    after (ops (F := Ideal)) (launchContents m c) (Proc.devRef .tc main_v57) = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h0 := after_arg0 m c
  have h52 := after_v52 m c
  have h55 := after_v55 m c
  have h56 := after_v56 m c
  simp only [after_cons, after_nil] at h0 h52 h55 h56 ⊢
  rw [nary_result_ne] at h0
  rotate_left
  · decide
  rw [nary_result_ne] at h52
  rotate_left
  · decide
  rw [nary_result_ne] at h55
  rotate_left
  · decide
  rw [nary_result_ne] at h56
  rotate_left
  · decide
  rw [nary4_result, h0, h52, h55, h56]
  rfl

/-- The reference's run, read: the result at its staged value, the arguments unchanged. -/
theorem run : θ_run defs (onTc (τ := τ) (main (F := Ideal))) ⟨m, fun _ => 0, ρ⟩ fun r => ∀ c : Dev nD,
      r.2.mem ((c.tc : Thread nD τ).loc main_v57) = val_main_v57 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans (after_v57 m c), (h c).2⟩) (Cert.ReferenceIdeal.Value.run (F := Ideal) m ρ)

end Cert.ReferenceIdeal.RefRun

end
-- ==== Proof.lean ====
/-
  Context-to-query attention: the fused kernel against the jnp reference, over the extended reals.

  Per batch element the kernel computes the trilinear similarity of 2048 context rows and 256 question rows, its two
  masked softmaxes (over the question axis and over the context axis), and from them the concatenation of the context,
  context-to-query, and the context's products with context-to-query and query-to-context. The reference computes
  the same quantities with einsums and `jax.nn.softmax` on whole arrays.

  At the extended reals both are the one function `Cert.Attn.Garr` of the arguments (Spec.lean): a change of float format
  is the identity, a matrix product into a zero accumulator and a host `dot_general` are the same finite sum, a lane
  reduction and a host `reduce` the same sum or the same fold of `max`. Where the two programs differ they differ only by
  the order of the summands of the similarity (sum of the three scores, the bias and the mask term), by the order of
  the two factors in two of the products, and by the reference taking its maxima once more with minus infinity; so
  the equality uses commutativity and associativity of addition and multiplication and nothing about finiteness: the
  precondition is not opened. The reference contracts its three-operand einsum as the kernel does (attention over the
  context first), so no sum is exchanged with another.

  The kernel side: KernelBody.lean (the body's arithmetic, entry by entry), KernelHost.lean (the operand arrays the host
  operations before the call compute), KernelValue.lean (the 32 output blocks tile the result). The reference side:
  RefAttention.lean (the two attention matrices), RefOut.lean (the contractions and the concatenation), RefRun.lean
  (the run with its result read stage by stage). The three frames are the generated ones, the reference's being its run
  with the result dropped; no rewrite was applied to the kernel, so it is its own idealization.
-/
import proofs.«121643_j6047313952906_2_alg».proof.Defs
import proofs.«121643_j6047313952906_2_alg».proof.Proof.Gen.Kernel
import proofs.«121643_j6047313952906_2_alg».proof.Proof.Gen.Kernel.Skeleton
import proofs.«121643_j6047313952906_2_alg».proof.Proof.Gen.Kernel.Launch
import proofs.«121643_j6047313952906_2_alg».proof.Proof.Gen.Kernel.Points
import proofs.«121643_j6047313952906_2_alg».proof.Proof.Gen.Kernel.Frame
import proofs.«121643_j6047313952906_2_alg».proof.Proof.Gen.KernelIdeal
import proofs.«121643_j6047313952906_2_alg».proof.Proof.Gen.KernelIdeal.Skeleton
import proofs.«121643_j6047313952906_2_alg».proof.Proof.Gen.KernelIdeal.Launch
import proofs.«121643_j6047313952906_2_alg».proof.Proof.Gen.KernelIdeal.Points
import proofs.«121643_j6047313952906_2_alg».proof.Proof.Gen.KernelIdeal.Frame
import proofs.«121643_j6047313952906_2_alg».proof.Proof.Gen.KernelIdeal.Value
import proofs.«121643_j6047313952906_2_alg».proof.Proof.Gen.ReferenceIdeal
import proofs.«121643_j6047313952906_2_alg».proof.Proof.Gen.Pre_finite_inputs
import proofs.«121643_j6047313952906_2_alg».proof.Proof.KernelValue
import proofs.«121643_j6047313952906_2_alg».proof.Proof.RefOut
import proofs.«121643_j6047313952906_2_alg».proof.Proof.RefRun
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefRun.run m ρ)

/-- No operation of the kernel was rewritten. -/
theorem preserves : Cert.preserves_Kernel_KernelIdeal := trivial

/-- From memories agreeing on the arguments both programs end with `Garr` of the arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.RefRun.run m' ρ')
  obtain ⟨e0, e1, e2, e3, e4, e5, e6, e7⟩ := hagree c
  rw [e0, e1, e2, e3, e4, e5, e6, e7]
  exact Cert.ReferenceIdeal.RefValue.result_eq _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
